-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S4096 .f32) (main_arg3 : FVec F S1024x1024 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S16384x4096 : Shape := ⟨2, ![16384, 4096]⟩
abbrev S1x4096 : Shape := ⟨2, ![1, 4096]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S1024x1024, .f32⟩
  | .hbm, ⟨4, _⟩ => ⟨S16384x4096, .f32⟩
  | .hbm, ⟨5, _⟩ => ⟨S16384x4096, .bf16⟩
  | .hbm, ⟨6, _⟩ => ⟨S4096x4096, .bf16⟩
  | .hbm, ⟨7, _⟩ => ⟨S1024x1024, .bf16⟩
  | .hbm, ⟨8, _⟩ => ⟨S1x4096, .f32⟩
  | .hbm, ⟨9, _⟩ => ⟨S16384x4096, .f32⟩
  | .hbm, ⟨10, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 4], ![false, false, false]⟩

def k0_cond5 (i : grid0.Coords) : BitVec 1 :=
  let arg2 : BitVec 32 := BitVec.ofNat 32 (i 2).val
  let c3_i32_15 : BitVec 32 := 3#32
  let v26 : BitVec 1 := Scalar.cmpi .eq arg2 c3_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond5 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1024x1024 : Shape := ⟨2, ![1024, 1024]⟩
abbrev S1x1x4096 : Shape := ⟨3, ![1, 1, 4096]⟩
abbrev S4x4096x4x1024 : Shape := ⟨4, ![4, 4096, 4, 1024]⟩
abbrev S_ : Shape := ⟨0, ![]⟩
abbrev S4x4096x1024 : Shape := ⟨3, ![4, 4096, 1024]⟩
abbrev S1x4x1x4096x1x1024 : Shape := ⟨6, ![1, 4, 1, 4096, 1, 1024]⟩
abbrev S1x4x1x4096x4x1024 : Shape := ⟨6, ![1, 4, 1, 4096, 4, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S1024x1024, .f32⟩
  | .hbm, ⟨4, _⟩ => ⟨S4x4096x4096, .f32⟩
  | .hbm, ⟨5, _⟩ => ⟨S1x1x4096, .f32⟩
  | .hbm, ⟨6, _⟩ => ⟨S4x4096x4096, .f32⟩
  | .hbm, ⟨7, _⟩ => ⟨S4x4096x4096, .f32⟩
  | .hbm, ⟨8, _⟩ => ⟨S4x4096x4x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S1x4x1x4096x1x1024, .f32⟩
  | .hbm, ⟨13, _⟩ => ⟨S1x4x1x4096x4x1024, .f32⟩
  | .hbm, ⟨14, _⟩ => ⟨S4x4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  shapeCasts_S4x4096x4096_S4x4096x4x1024 : S4x4096x4096.ShapeCasts S4x4096x4x1024
  reducesTo_S4x4096x4x1024_S4x4096x1024_d2 : S4x4096x4x1024.ReducesTo [2] S4x4096x1024
  h_S_ : 0 < S_.numel
  shapeCasts_S4x4096x1024_S1x4x1x4096x1x1024 : S4x4096x1024.ShapeCasts S1x4x1x4096x1x1024
  bcast_S1x4x1x4096x1x1024_S1x4x1x4096x4x1024_0_1_2_3_4_5 : S1x4x1x4096x1x1024.BroadcastsInDim S1x4x1x4096x4x1024 (![0, 1, 2, 3, 4, 5] : Fin 6 → Fin S1x4x1x4096x4x1024.rank)
  shapeCasts_S1x4x1x4096x4x1024_S4x4096x4096 : S1x4x1x4096x4x1024.ShapeCasts S4x4096x4096
  dot_S4x4096x4096_S4096x4096_S4x4096x4096_2_1_01_0_n_n_wf : DotDims.WF S4x4096x4096 S4096x4096 S4x4096x4096 [2] [1] [0, 1] [0] [] []
  dot_S4x4096x1024_S1024x1024_S4x4096x1024_2_1_01_0_n_n_wf : DotDims.WF S4x4096x1024 S1024x1024 S4x4096x1024 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.KBConds.lean ====
/-
  The control of the fused kernel's body. The body branches five times on the grid point (i, j, k) of the
  16 x 4 x 4 grid: on k = 0 (the main accumulator is reset), on j = 0 and k = 0 (the row-sum accumulator is
  reset), on j = 0 (the x block is added to the row sum), on j = 0 and k = 3 (the row sum is replaced by its
  product with the adapter matrix) and on k = 3 (the output block is written). Each condition is stated as
  the body computes it and decided over the 256 points: with t the position of the point in row-major order,
  k = t mod 4 and j = (t / 4) mod 4.
-/
import proofs.«161207_j89266600280130_2_alg».proof.Proof.Gen.Kernel.Frame
import proofs.«161207_j89266600280130_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- k = 0, as the body computes it. -/
abbrev condK0 (i : grid0.Coords) : Prop :=
  (Scalar.cmpi .ne (Scalar.extui (Scalar.cmpi .eq (BitVec.ofNat 32 (i 2).val) 0#32)) 0#32) = 1#1
/-- j = 0 and k = 0. -/
abbrev condJK0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- j = 0. -/
abbrev condJ0 (i : grid0.Coords) : Prop :=
  (Scalar.cmpi .ne (Scalar.extui (Scalar.cmpi .eq (BitVec.ofNat 32 (i 1).val) 0#32)) 0#32) = 1#1
/-- j = 0 and k = 3. -/
abbrev condJK3 (i : grid0.Coords) : Prop :=
  (Scalar.cmpi .ne (Scalar.extui (Scalar.andi (Scalar.cmpi .eq (BitVec.ofNat 32 (i 1).val) 0#32) (Scalar.cmpi .eq (BitVec.ofNat 32 (i 2).val) 3#32))) 0#32) = 1#1
/-- k = 3. -/
abbrev condK3 (i : grid0.Coords) : Prop := k0_cond5 i = 1#1

theorem hcondK0 : ∀ t : Fin cfg0.N, condK0 (grid0.coords t) ↔ t.val % 4 = 0 :=
  (by decide +kernel : ∀ t : Fin grid0.N, condK0 (grid0.coords t) ↔ t.val % 4 = 0)
theorem hcondJK0 : ∀ t : Fin cfg0.N, condJK0 (grid0.coords t) ↔ t.val % 16 = 0 :=
  (by decide +kernel : ∀ t : Fin grid0.N, condJK0 (grid0.coords t) ↔ t.val % 16 = 0)
theorem hcondJ0 : ∀ t : Fin cfg0.N, condJ0 (grid0.coords t) ↔ t.val / 4 % 4 = 0 :=
  (by decide +kernel : ∀ t : Fin grid0.N, condJ0 (grid0.coords t) ↔ t.val / 4 % 4 = 0)
theorem hcondJK3 : ∀ t : Fin cfg0.N, condJK3 (grid0.coords t) ↔ t.val % 16 = 3 :=
  (by decide +kernel : ∀ t : Fin grid0.N, condJK3 (grid0.coords t) ↔ t.val % 16 = 3)
theorem hcondK3 : ∀ t : Fin cfg0.N, condK3 (grid0.coords t) ↔ t.val % 4 = 3 :=
  (by decide +kernel : ∀ t : Fin grid0.N, condK3 (grid0.coords t) ↔ t.val % 4 = 3)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output block is stored exactly at the points with k = 3; elsewhere its buffer is idle and is not written back. -/
theorem live4 : ∀ t : Fin cfg0.N, t.val % 4 = 3 → cfg0.idle 4 (grid0.coords t) = false := by decide +kernel
theorem idle4 : ∀ t : Fin cfg0.N, ¬ t.val % 4 = 3 → cfg0.idle 4 (grid0.coords t) = true := by decide +kernel
theorem noFlush4 : ∀ t : Fin cfg0.N, ¬ t.val % 4 = 3 → (cfg0.win 4).flush t = false := by decide +kernel

/-- The staging memref each window is on at point t, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accMain : Memref sig .tc .vmem S1024x1024 .f32 := Memref.whole cc0_scratch0
abbrev accRow : Memref sig .tc .vmem S1024x1024 .f32 := Memref.whole cc0_scratch1

/-- The launch's invariant with the two accumulators as memrefs owned at some contents. -/
theorem PhiA_eq (c : Dev nD) :
    (Pipeline.ΦA spec0 c : sProp 𝕄)
      = iprop(iprop((∃ d, owns (c : Thread nD τ) accMain fullShare d) ∗ (∃ d, owns (c : Thread nD τ) accRow fullShare d)) ∗ (∃ r, prngReg c r)) := by
  unfold Pipeline.ΦA; rw [scopedRest0_eq]; simp only [accMain, accRow, owns_whole]; try rfl

end Cert.Kernel.Hand

end
-- ==== Proof.KBState.lean ====
/-
  What the two accumulators hold after each grid point, and the pipeline's proof data.

  The grid is 16 x 4 x 4; position n in row-major order has k = n mod 4 (the block of the contraction),
  j = (n / 4) mod 4 (the block of output columns) and i = n / 16 (the block of rows). After the body at n

    * the main accumulator holds the block product x_blk * w_blk^T added to zero (k = 0) or to what the point
      before left (k > 0): after k = 3 the full product of row block i and column block j;
    * the row accumulator, while j = 0, holds the x blocks of row block i added up over k, and at k = 3 that sum
      times the adapter matrix; while j > 0 it is not touched, so it keeps that product for the whole row block;
    * at k = 3 the output block is main accumulator + bias block + row accumulator.

  The state is defined by recursion on n over the body's own arithmetic.
-/
import proofs.«161207_j89266600280130_2_alg».proof.Proof.KBConds

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

/-- The main accumulator after a point with k = kk, from the two input blocks and what it held before. -/
def stepM (kk : ℕ) (x0 x1 : Vec F S1024x1024 .bf16) (xs0 : Vec F S1024x1024 .f32) : Vec F S1024x1024 .f32 :=
  k0_pay4 x0 x1 (if kk = 0 then k0_pay1 else xs0)

/-- The row accumulator after a point with j = jj and k = kk, from the x block, the adapter block and what it
    held before. -/
def stepR (jj kk : ℕ) (x0 x3 : Vec F S1024x1024 .bf16) (xs1 : Vec F S1024x1024 .f32) : Vec F S1024x1024 .f32 :=
  if jj = 0 then
    (if kk = 3 then k0_pay6 (k0_pay5 x0 (if kk = 0 then k0_pay2 else xs1)) x3
      else k0_pay5 x0 (if kk = 0 then k0_pay2 else xs1))
  else xs1

/-- The output block stored at k = 3, from the bias block and the two accumulators. -/
def stepO (x2 : Vec F S1x1024 .f32) (s0 s1 : Vec F S1024x1024 .f32) : Vec F S1024x1024 .f32 := k0_pay7 s0 x2 s1

variable (m : (ℓ : Loc nD τ sig) → Buf (Elt F) ℓ) (ρ : Dev nD → PrngReg)

/-- The four input blocks at a point: of x, of W, of the bias, and the adapter matrix. -/
def blkX (c : Dev nD) (t : Fin cfg0.N) : Vec F S1024x1024 .bf16 := iblk m c 0 t
def blkW (c : Dev nD) (t : Fin cfg0.N) : Vec F S1024x1024 .bf16 := iblk m c 1 t
def blkB (c : Dev nD) (t : Fin cfg0.N) : Vec F S1x1024 .f32 := iblk m c 2 t
def blkA (c : Dev nD) (t : Fin cfg0.N) : Vec F S1024x1024 .bf16 := iblk m c 3 t

/-- The two accumulators (main, row) after the body at position n. -/
def st (c : Dev nD) : (n : ℕ) → n < cfg0.N → Vec F S1024x1024 .f32 × Vec F S1024x1024 .f32
  | 0, h => (stepM 0 (blkX m c ⟨0, h⟩) (blkW m c ⟨0, h⟩) k0_pay1, stepR 0 0 (blkX m c ⟨0, h⟩) (blkA m c ⟨0, h⟩) k0_pay2)
  | n + 1, h =>
    (stepM ((n + 1) % 4) (blkX m c ⟨n + 1, h⟩) (blkW m c ⟨n + 1, h⟩) (st c n (Nat.lt_of_succ_lt h)).1,
     stepR ((n + 1) / 4 % 4) ((n + 1) % 4) (blkX m c ⟨n + 1, h⟩) (blkA m c ⟨n + 1, h⟩) (st c n (Nat.lt_of_succ_lt h)).2)

/-- The state at a point is one step from any contents that, unless the point is the first, are the state of the
    point before: at the first point both accumulators are reset, so what they held does not matter. -/
theorem st_eq (c : Dev nD) (t : Fin cfg0.N) (xs0 xs1 : Vec F S1024x1024 .f32)
    (h : ∀ hz : t.val ≠ 0, xs0 = (st m c (t.val - 1) (by omega)).1 ∧ xs1 = (st m c (t.val - 1) (by omega)).2) :
    st m c t.val t.isLt = (stepM (t.val % 4) (blkX m c t) (blkW m c t) xs0,
      stepR (t.val / 4 % 4) (t.val % 4) (blkX m c t) (blkA m c t) xs1) := by
  obtain ⟨n, hn⟩ := t
  cases n with
  | zero => simp [st, stepM, stepR]
  | succ n =>
    obtain ⟨h0, h1⟩ := h (Nat.succ_ne_zero n)
    subst h0 h1
    rfl

/-- The region invariant before position n: before the first point the launch's own (both accumulators at
    anything); afterwards both accumulators at the state the point before left, and the generator register at
    some state. -/
def PhiS (c : Dev nD) : (n : ℕ) → n ≤ cfg0.N → sProp 𝕄
  | 0, _ => Pipeline.ΦA spec0 c
  | n + 1, hn => iprop(iprop(owns (c : Thread nD τ) accMain fullShare ((st m c n hn).1) ∗ owns (c : Thread nD τ) accRow fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accMain fullShare ((st m c n hn).1) ∗ owns (c : Thread nD τ) accRow fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) accMain fullShare ((st m c (n - 1) (by omega)).1) ∗ owns (c : Thread nD τ) accRow fullShare ((st m c (n - 1) (by omega)).2)) ∗ (∃ r, prngReg c r)) := by
  cases n with
  | zero => exact absurd rfl hz
  | succ n => rfl

/-- The proof data of the one pipeline on core c: the arrays as the region finds them; after the body each
    input's buffer at its block, the output's at the block stored from the point's state; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stepO (blkB m c t) (st m c t.val t.isLt).1 (st m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = stepO (blkB m c t) (st m c t.val t.isLt).1 (st m c t.val t.isLt).2 := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Hand

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KBRunA.lean ====
/-
  The kernel body at a grid point with j = 0 and k = 0: both accumulators are reset, then the block product and the x block are added.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : condK0 i) (hc2 : condJK0 i) (hc3 : condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 (k0_pay1 (F := F))) ∗ owns (c : Thread nD τ) arg9 fullShare (k0_pay5 x0 (k0_pay2 (F := F)))) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.Kernel.Hand

end
-- ==== Proof.KBRunB.lean ====
/-
  The kernel body at a grid point with j = 0 and 0 < k < 3: the block product and the x block are added to what the point before left.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 xs0) ∗ owns (c : Thread nD τ) arg9 fullShare (k0_pay5 x0 xs1)) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.Kernel.Hand

end
-- ==== Proof.KBRunC.lean ====
/-
  The kernel body at a grid point with j = 0 and k = 3: the last additions, the row sum replaced by its product with the adapter matrix, and the output block stored.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : condJ0 i) (hc4 : condJK3 i) (hc5 : condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay7 (k0_pay4 x0 x1 xs0) x2 (k0_pay6 (k0_pay5 x0 xs1) x3)) ∗ owns (c : Thread nD τ) arg8 fullShare (k0_pay4 x0 x1 xs0) ∗ owns (c : Thread nD τ) arg9 fullShare (k0_pay6 (k0_pay5 x0 xs1) x3)) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.Kernel.Hand

end
-- ==== Proof.KBRunD.lean ====
/-
  The kernel body at a grid point with j > 0 and k = 0: the main accumulator is reset and the block product added; the cached adapter term is kept.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runD (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : condK0 i) (hc2 : ¬condJK0 i) (hc3 : ¬condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 (k0_pay1 (F := F))) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.Kernel.Hand

end
-- ==== Proof.KBRunE.lean ====
/-
  The kernel body at a grid point with j > 0 and 0 < k < 3: the block product is added; the cached adapter term is kept.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runE (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : ¬condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 xs0) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.Kernel.Hand

end
-- ==== Proof.KBRunF.lean ====
/-
  The kernel body at a grid point with j > 0 and k = 3: the last block product is added and the output block stored with the cached adapter term.
  The body is run on whole buffers holding named contents; what it leaves in the two accumulators and in the
  output's buffer is stated through the body's own arithmetic (the skeleton's payloads).
-/
import proofs.«161207_j89266600280130_2_alg».proof.Proof.KBConds
import proofs.«161207_j89266600280130_2_alg».proof.Proof.LibWholeStores

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.WholeStores
variable {F : FTy → Type} [FloatOps F]
local notation "𝕄" => MT nD τ sig Unit (Elt F) ℕ (UR sig nD τ) ℕ

set_option maxHeartbeats 2000000 in
theorem runF (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : ¬condJ0 i) (hc4 : ¬condJK3 i) (hc5 : condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay7 (k0_pay4 x0 x1 xs0) x2 xs1) ∗ owns (c : Thread nD τ) arg8 fullShare (k0_pay4 x0 x1 xs0) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.Kernel.Hand

end
-- ==== Proof.KBBody.lean ====
/-
  The body obligation, the frame run and the frame of the fused kernel.

  At every grid point the body, run on the inputs' blocks, on the output's buffer and on the two accumulators at
  what the point before left, takes the accumulators to the state of this point (one step of the recursion that
  defines the state) and, at k = 3, stores the output block; which of the six control cases applies is read off
  the position. The launch hands the accumulators over at anything and takes them back at anything.
-/
import proofs.«161207_j89266600280130_2_alg».proof.Proof.KBState
import proofs.«161207_j89266600280130_2_alg».proof.Proof.KBRunA
import proofs.«161207_j89266600280130_2_alg».proof.Proof.KBRunB
import proofs.«161207_j89266600280130_2_alg».proof.Proof.KBRunC
import proofs.«161207_j89266600280130_2_alg».proof.Proof.KBRunD
import proofs.«161207_j89266600280130_2_alg».proof.Proof.KBRunE
import proofs.«161207_j89266600280130_2_alg».proof.Proof.KBRunF

set_option maxRecDepth 16384

noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

/-- One body run at a point whose conditions are those of j = jj and k = kk, whichever of the six cases that is:
    the accumulators step, and the output's buffer is stored at k = 3 and untouched otherwise. -/
theorem body_step (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (jj kk : ℕ)
    (h1 : condK0 i ↔ kk = 0) (h2 : condJK0 i ↔ (jj = 0 ∧ kk = 0)) (h3 : condJ0 i ↔ jj = 0)
    (h4 : condJK3 i ↔ (jj = 0 ∧ kk = 3)) (h5 : condK3 i ↔ kk = 3)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if kk = 3 then stepO x2 (stepM kk x0 x1 xs0) (stepR jj kk x0 x3 xs1) else xo)
            ∗ owns (c : Thread nD τ) arg8 fullShare (stepM kk x0 x1 xs0) ∗ owns (c : Thread nD τ) arg9 fullShare (stepR jj kk x0 x3 xs1)) -∗ K ⟨⟩))
      ⊢ wp frame (wpE (defs₀ (F := F)) Variants.none c none) E (cc0__mora_kernel i arg3 harg3 arg4 harg4 arg5 harg5 arg6 harg6 arg7 harg7 arg8 harg8 arg9 harg9) K := by
  by_cases hk0 : kk = 0
  · have hk3 : ¬ kk = 3 := by omega
    by_cases hj0 : jj = 0
    · simp only [stepM, stepR, stepO, if_pos hk0, if_pos hj0, if_neg hk3]
      exact runA c i arg3 harg3 arg4 harg4 arg5 harg5 arg6 harg6 arg7 harg7 arg8 harg8 arg9 harg9 (h1.mpr hk0) (h2.mpr ⟨hj0, hk0⟩) (h3.mpr hj0) (fun h => hk3 (h4.mp h).2) (fun h => hk3 (h5.mp h)) x0 x1 x2 x3 xo xs0 xs1 E K
    · simp only [stepM, stepR, stepO, if_pos hk0, if_neg hj0, if_neg hk3]
      exact runD c i arg3 harg3 arg4 harg4 arg5 harg5 arg6 harg6 arg7 harg7 arg8 harg8 arg9 harg9 (h1.mpr hk0) (fun h => hj0 (h2.mp h).1) (fun h => hj0 (h3.mp h)) (fun h => hk3 (h4.mp h).2) (fun h => hk3 (h5.mp h)) x0 x1 x2 x3 xo xs0 xs1 E K
  · by_cases hk3 : kk = 3
    · by_cases hj0 : jj = 0
      · simp only [stepM, stepR, stepO, if_neg hk0, if_pos hj0, if_pos hk3]
        exact runC c i arg3 harg3 arg4 harg4 arg5 harg5 arg6 harg6 arg7 harg7 arg8 harg8 arg9 harg9 (fun h => hk0 (h1.mp h)) (fun h => hk0 (h2.mp h).2) (h3.mpr hj0) (h4.mpr ⟨hj0, hk3⟩) (h5.mpr hk3) x0 x1 x2 x3 xo xs0 xs1 E K
      · simp only [stepM, stepR, stepO, if_neg hk0, if_neg hj0, if_pos hk3]
        exact runF c i arg3 harg3 arg4 harg4 arg5 harg5 arg6 harg6 arg7 harg7 arg8 harg8 arg9 harg9 (fun h => hk0 (h1.mp h)) (fun h => hk0 (h2.mp h).2) (fun h => hj0 (h3.mp h)) (fun h => hj0 (h4.mp h).1) (h5.mpr hk3) x0 x1 x2 x3 xo xs0 xs1 E K
    · by_cases hj0 : jj = 0
      · simp only [stepM, stepR, stepO, if_neg hk0, if_pos hj0, if_neg hk3]
        exact runB c i arg3 harg3 arg4 harg4 arg5 harg5 arg6 harg6 arg7 harg7 arg8 harg8 arg9 harg9 (fun h => hk0 (h1.mp h)) (fun h => hk0 (h2.mp h).2) (h3.mpr hj0) (fun h => hk3 (h4.mp h).2) (fun h => hk3 (h5.mp h)) x0 x1 x2 x3 xo xs0 xs1 E K
      · simp only [stepM, stepR, stepO, if_neg hk0, if_neg hj0, if_neg hk3]
        exact runE c i arg3 harg3 arg4 harg4 arg5 harg5 arg6 harg6 arg7 harg7 arg8 harg8 arg9 harg9 (fun h => hk0 (h1.mp h)) (fun h => hk0 (h2.mp h).2) (fun h => hj0 (h3.mp h)) (fun h => hj0 (h4.mp h).1) (fun h => hk3 (h5.mp h)) x0 x1 x2 x3 xo xs0 xs1 E K

variable (m : (ℓ : Loc nD τ sig) → Buf (Elt F) ℓ) (ρ : Dev nD → PrngReg)

/-- The conditions at the point of position t are those of j = t / 4 mod 4 and k = t mod 4. -/
theorem hJK0 (t : Fin cfg0.N) : condJK0 (grid0.coords t) ↔ (t.val / 4 % 4 = 0 ∧ t.val % 4 = 0) :=
  (hcondJK0 t).trans ⟨fun h => by omega, fun h => by omega⟩
theorem hJK3 (t : Fin cfg0.N) : condJK3 (grid0.coords t) ↔ (t.val / 4 % 4 = 0 ∧ t.val % 4 = 3) :=
  (hcondJK3 t).trans ⟨fun h => by omega, fun h => by omega⟩

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the output's buffer is handed back as: its block at k = 3; whatever it held, untouched, elsewhere. -/
theorem leaves4 (c : Dev nD) (t : Fin cfg0.N) (xo : Vec F S1024x1024 .f32) (hxo : ∃ d, xo = (dats m 0 c).before 4 t d) :
    owns (c : Thread nD τ) (ms4 t) fullShare (if t.val % 4 = 3 then (dats m 0 c).after 4 t else xo) ⊢ (dats m 0 c).leavesExact 4 t := by
  by_cases hk3 : t.val % 4 = 3
  · rw [if_pos hk3, show (dats m 0 c).leavesExact 4 t = owns (c : Thread nD τ) (ms4 t) fullShare ((dats m 0 c).after 4 t) from by
      unfold Dat.leavesExact; rw [live4 t hk3]]
  · obtain ⟨d, rfl⟩ := hxo
    rw [if_neg hk3, Dat.leavesExact_idle (dats m 0 c) 4 t (idle4 t hk3) (noFlush4 t hk3)]
    iintro H; iexists _; iexact H

set_option maxHeartbeats 4000000 in
/-- The body at any point, from accumulators holding xs0 and xs1, which unless the point is the first are the
    state of the point before. -/
theorem sound_core (c : Dev nD) (t : Fin cfg0.N) (xs0 xs1 : Vec F S1024x1024 .f32)
    (h : ∀ hz : t.val ≠ 0, xs0 = (st m c (t.val - 1) (by omega)).1 ∧ xs1 = (st m c (t.val - 1) (by omega)).2) :
    iprop(iprop(iprop(owns (c : Thread nD τ) accMain fullShare xs0 ∗ owns (c : Thread nD τ) accRow fullShare xs1) ∗ (∃ r, prngReg c r))
      ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d)))
    ⊢ wp frame (wpE (defs₀ (F := F)) Variants.none c none) Set.univ (bodyAt0 t) (fun _ => bodyPost m c t) := by
  unfold bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [st_eq m c t xs0 xs1 h]
  iintro ⟨⟨⟨HS0, HS1⟩, Hg⟩, Ho, ⟨%d0, H0⟩, ⟨%d1, H1⟩, ⟨%d2, H2⟩, ⟨%d3, H3⟩, ⟨%d4, H4⟩⟩
  iapply (body_step c (grid0.coords t) (ms0 t) (hs0 t) (ms1 t) (hs1 t) (ms2 t) (hs2 t) (ms3 t) (hs3 t) (ms4 t) (hs4 t)
    accMain (Memref.isWhole_whole _) accRow (Memref.isWhole_whole _) (t.val / 4 % 4) (t.val % 4)
    (hcondK0 t) (hJK0 t) (hcondJ0 t) (hJK3 t) (hcondK3 t)
    (blkX m c t) (blkW m c t) (blkB m c t) (blkA m c t) ((dats m 0 c).before 4 t d4) xs0 xs1 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iapply (leaves4 m c t ((dats m 0 c).before 4 t d4) ⟨d4, rfl⟩)
  rw [after4, st_eq m c t xs0 xs1 h]
  iexact H4

set_option maxHeartbeats 4000000 in
/-- The body at any point: before the first point the launch's invariant hands both accumulators over at
    anything; afterwards the invariant names them at the state of the point before. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA_eq]
    iintro ⟨⟨⟨⟨%xs0, HS0⟩, ⟨%xs1, HS1⟩⟩, Hg⟩, Hrest⟩
    iapply (sound_core m c t xs0 xs1 (fun h => absurd hz h))
    isplitl [HS0 HS1 Hg]
    · isplitl [HS0 HS1]
      · isplitl [HS0]; · iexact HS0
        iexact HS1
      iexact Hg
    iexact Hrest
  · rw [PhiS_castSucc m c t, PhiS_pos m c _ _ hz]
    exact sound_core m c t _ _ (fun _ => ⟨rfl, rfl⟩)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the accumulators hold is forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of @main terminates, and every final state has the pipeline's arrays at what the
    proof data say and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KIConds.lean ====
/-
  The control of the fused kernel's body. The body branches five times on the grid point (i, j, k) of the
  16 x 4 x 4 grid: on k = 0 (the main accumulator is reset), on j = 0 and k = 0 (the row-sum accumulator is
  reset), on j = 0 (the x block is added to the row sum), on j = 0 and k = 3 (the row sum is replaced by its
  product with the adapter matrix) and on k = 3 (the output block is written). Each condition is stated as
  the body computes it and decided over the 256 points: with t the position of the point in row-major order,
  k = t mod 4 and j = (t / 4) mod 4.
-/
import proofs.«161207_j89266600280130_2_alg».proof.Proof.Gen.KernelIdeal.Frame
import proofs.«161207_j89266600280130_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- k = 0, as the body computes it. -/
abbrev condK0 (i : grid0.Coords) : Prop :=
  (Scalar.cmpi .ne (Scalar.extui (Scalar.cmpi .eq (BitVec.ofNat 32 (i 2).val) 0#32)) 0#32) = 1#1
/-- j = 0 and k = 0. -/
abbrev condJK0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- j = 0. -/
abbrev condJ0 (i : grid0.Coords) : Prop :=
  (Scalar.cmpi .ne (Scalar.extui (Scalar.cmpi .eq (BitVec.ofNat 32 (i 1).val) 0#32)) 0#32) = 1#1
/-- j = 0 and k = 3. -/
abbrev condJK3 (i : grid0.Coords) : Prop :=
  (Scalar.cmpi .ne (Scalar.extui (Scalar.andi (Scalar.cmpi .eq (BitVec.ofNat 32 (i 1).val) 0#32) (Scalar.cmpi .eq (BitVec.ofNat 32 (i 2).val) 3#32))) 0#32) = 1#1
/-- k = 3. -/
abbrev condK3 (i : grid0.Coords) : Prop := k0_cond5 i = 1#1

theorem hcondK0 : ∀ t : Fin cfg0.N, condK0 (grid0.coords t) ↔ t.val % 4 = 0 :=
  (by decide +kernel : ∀ t : Fin grid0.N, condK0 (grid0.coords t) ↔ t.val % 4 = 0)
theorem hcondJK0 : ∀ t : Fin cfg0.N, condJK0 (grid0.coords t) ↔ t.val % 16 = 0 :=
  (by decide +kernel : ∀ t : Fin grid0.N, condJK0 (grid0.coords t) ↔ t.val % 16 = 0)
theorem hcondJ0 : ∀ t : Fin cfg0.N, condJ0 (grid0.coords t) ↔ t.val / 4 % 4 = 0 :=
  (by decide +kernel : ∀ t : Fin grid0.N, condJ0 (grid0.coords t) ↔ t.val / 4 % 4 = 0)
theorem hcondJK3 : ∀ t : Fin cfg0.N, condJK3 (grid0.coords t) ↔ t.val % 16 = 3 :=
  (by decide +kernel : ∀ t : Fin grid0.N, condJK3 (grid0.coords t) ↔ t.val % 16 = 3)
theorem hcondK3 : ∀ t : Fin cfg0.N, condK3 (grid0.coords t) ↔ t.val % 4 = 3 :=
  (by decide +kernel : ∀ t : Fin grid0.N, condK3 (grid0.coords t) ↔ t.val % 4 = 3)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output block is stored exactly at the points with k = 3; elsewhere its buffer is idle and is not written back. -/
theorem live4 : ∀ t : Fin cfg0.N, t.val % 4 = 3 → cfg0.idle 4 (grid0.coords t) = false := by decide +kernel
theorem idle4 : ∀ t : Fin cfg0.N, ¬ t.val % 4 = 3 → cfg0.idle 4 (grid0.coords t) = true := by decide +kernel
theorem noFlush4 : ∀ t : Fin cfg0.N, ¬ t.val % 4 = 3 → (cfg0.win 4).flush t = false := by decide +kernel

/-- The staging memref each window is on at point t, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The two accumulators: whole scoped buffers of the kernel's own. -/
abbrev accMain : Memref sig .tc .vmem S1024x1024 .f32 := Memref.whole cc0_scratch0
abbrev accRow : Memref sig .tc .vmem S1024x1024 .f32 := Memref.whole cc0_scratch1

/-- The launch's invariant with the two accumulators as memrefs owned at some contents. -/
theorem PhiA_eq (c : Dev nD) :
    (Pipeline.ΦA spec0 c : sProp 𝕄)
      = iprop(iprop((∃ d, owns (c : Thread nD τ) accMain fullShare d) ∗ (∃ d, owns (c : Thread nD τ) accRow fullShare d)) ∗ (∃ r, prngReg c r)) := by
  unfold Pipeline.ΦA; rw [scopedRest0_eq]; simp only [accMain, accRow, owns_whole]; try rfl

end Cert.KernelIdeal.Hand

end
-- ==== Proof.KIState.lean ====
/-
  What the two accumulators hold after each grid point, and the pipeline's proof data.

  The grid is 16 x 4 x 4; position n in row-major order has k = n mod 4 (the block of the contraction),
  j = (n / 4) mod 4 (the block of output columns) and i = n / 16 (the block of rows). After the body at n

    * the main accumulator holds the block product x_blk * w_blk^T added to zero (k = 0) or to what the point
      before left (k > 0): after k = 3 the full product of row block i and column block j;
    * the row accumulator, while j = 0, holds the x blocks of row block i added up over k, and at k = 3 that sum
      times the adapter matrix; while j > 0 it is not touched, so it keeps that product for the whole row block;
    * at k = 3 the output block is main accumulator + bias block + row accumulator.

  The state is defined by recursion on n over the body's own arithmetic.
-/
import proofs.«161207_j89266600280130_2_alg».proof.Proof.KIConds

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

/-- The main accumulator after a point with k = kk, from the two input blocks and what it held before. -/
def stepM (kk : ℕ) (x0 x1 : Vec F S1024x1024 .bf16) (xs0 : Vec F S1024x1024 .f32) : Vec F S1024x1024 .f32 :=
  k0_pay4 x0 x1 (if kk = 0 then k0_pay1 else xs0)

/-- The row accumulator after a point with j = jj and k = kk, from the x block, the adapter block and what it
    held before. -/
def stepR (jj kk : ℕ) (x0 x3 : Vec F S1024x1024 .bf16) (xs1 : Vec F S1024x1024 .f32) : Vec F S1024x1024 .f32 :=
  if jj = 0 then
    (if kk = 3 then k0_pay6 (k0_pay5 x0 (if kk = 0 then k0_pay2 else xs1)) x3
      else k0_pay5 x0 (if kk = 0 then k0_pay2 else xs1))
  else xs1

/-- The output block stored at k = 3, from the bias block and the two accumulators. -/
def stepO (x2 : Vec F S1x1024 .f32) (s0 s1 : Vec F S1024x1024 .f32) : Vec F S1024x1024 .f32 := k0_pay7 s0 x2 s1

variable (m : (ℓ : Loc nD τ sig) → Buf (Elt F) ℓ) (ρ : Dev nD → PrngReg)

/-- The four input blocks at a point: of x, of W, of the bias, and the adapter matrix. -/
def blkX (c : Dev nD) (t : Fin cfg0.N) : Vec F S1024x1024 .bf16 := iblk m c 0 t
def blkW (c : Dev nD) (t : Fin cfg0.N) : Vec F S1024x1024 .bf16 := iblk m c 1 t
def blkB (c : Dev nD) (t : Fin cfg0.N) : Vec F S1x1024 .f32 := iblk m c 2 t
def blkA (c : Dev nD) (t : Fin cfg0.N) : Vec F S1024x1024 .bf16 := iblk m c 3 t

/-- The two accumulators (main, row) after the body at position n. -/
def st (c : Dev nD) : (n : ℕ) → n < cfg0.N → Vec F S1024x1024 .f32 × Vec F S1024x1024 .f32
  | 0, h => (stepM 0 (blkX m c ⟨0, h⟩) (blkW m c ⟨0, h⟩) k0_pay1, stepR 0 0 (blkX m c ⟨0, h⟩) (blkA m c ⟨0, h⟩) k0_pay2)
  | n + 1, h =>
    (stepM ((n + 1) % 4) (blkX m c ⟨n + 1, h⟩) (blkW m c ⟨n + 1, h⟩) (st c n (Nat.lt_of_succ_lt h)).1,
     stepR ((n + 1) / 4 % 4) ((n + 1) % 4) (blkX m c ⟨n + 1, h⟩) (blkA m c ⟨n + 1, h⟩) (st c n (Nat.lt_of_succ_lt h)).2)

/-- The state at a point is one step from any contents that, unless the point is the first, are the state of the
    point before: at the first point both accumulators are reset, so what they held does not matter. -/
theorem st_eq (c : Dev nD) (t : Fin cfg0.N) (xs0 xs1 : Vec F S1024x1024 .f32)
    (h : ∀ hz : t.val ≠ 0, xs0 = (st m c (t.val - 1) (by omega)).1 ∧ xs1 = (st m c (t.val - 1) (by omega)).2) :
    st m c t.val t.isLt = (stepM (t.val % 4) (blkX m c t) (blkW m c t) xs0,
      stepR (t.val / 4 % 4) (t.val % 4) (blkX m c t) (blkA m c t) xs1) := by
  obtain ⟨n, hn⟩ := t
  cases n with
  | zero => simp [st, stepM, stepR]
  | succ n =>
    obtain ⟨h0, h1⟩ := h (Nat.succ_ne_zero n)
    subst h0 h1
    rfl

/-- The region invariant before position n: before the first point the launch's own (both accumulators at
    anything); afterwards both accumulators at the state the point before left, and the generator register at
    some state. -/
def PhiS (c : Dev nD) : (n : ℕ) → n ≤ cfg0.N → sProp 𝕄
  | 0, _ => Pipeline.ΦA spec0 c
  | n + 1, hn => iprop(iprop(owns (c : Thread nD τ) accMain fullShare ((st m c n hn).1) ∗ owns (c : Thread nD τ) accRow fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accMain fullShare ((st m c n hn).1) ∗ owns (c : Thread nD τ) accRow fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) accMain fullShare ((st m c (n - 1) (by omega)).1) ∗ owns (c : Thread nD τ) accRow fullShare ((st m c (n - 1) (by omega)).2)) ∗ (∃ r, prngReg c r)) := by
  cases n with
  | zero => exact absurd rfl hz
  | succ n => rfl

/-- The proof data of the one pipeline on core c: the arrays as the region finds them; after the body each
    input's buffer at its block, the output's at the block stored from the point's state; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stepO (blkB m c t) (st m c t.val t.isLt).1 (st m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = stepO (blkB m c t) (st m c t.val t.isLt).1 (st m c t.val t.isLt).2 := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Hand

end
-- ==== Proof.KIUnroll.lean ====
/-
  The accumulators in closed form.

  Unfolding the recursion that defines the state: at a position n with k = 3 the main accumulator is the four
  block products of the positions n - 3, …, n added one after the other to the zero block; at the position
  16 i + 3 (the end of row block i's first column block) the row accumulator is the four x blocks of the row
  block added one after the other to the zero block, times the adapter matrix; and from there to the end of
  the row block (positions 16 i + 3 + d, d ≤ 12) the row accumulator does not change.
-/
import proofs.«161207_j89266600280130_2_alg».proof.Proof.KIState

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The grid has 256 points. -/
theorem N_eq : cfg0.N = 256 := N_0

/-- At k = 0 the main accumulator is the block product added to the zero block. -/
theorem stM_k0 (c : Dev nD) (n : ℕ) (h : n < cfg0.N) (hk : n % 4 = 0) :
    (st m c n h).1 = k0_pay4 (blkX m c ⟨n, h⟩) (blkW m c ⟨n, h⟩) k0_pay1 := by
  cases n with
  | zero => show stepM 0 _ _ _ = _; unfold stepM; rw [if_pos rfl]
  | succ n => show stepM ((n + 1) % 4) _ _ _ = _; unfold stepM; rw [if_pos hk]

/-- At k > 0 it is the block product added to what the position before left. -/
theorem stM_kpos (c : Dev nD) (n : ℕ) (h : n + 1 < cfg0.N) (hk : (n + 1) % 4 ≠ 0) :
    (st m c (n + 1) h).1 = k0_pay4 (blkX m c ⟨n + 1, h⟩) (blkW m c ⟨n + 1, h⟩) (st m c n (Nat.lt_of_succ_lt h)).1 := by
  show stepM ((n + 1) % 4) _ _ _ = _; unfold stepM; rw [if_neg hk]

/-- The main accumulator after the four positions of one output block. -/
theorem stM_unrolled (c : Dev nD) (a : ℕ) (h : 4 * a + 3 < cfg0.N) :
    (st m c (4 * a + 3) h).1
      = k0_pay4 (blkX m c ⟨4 * a + 3, h⟩) (blkW m c ⟨4 * a + 3, h⟩)
          (k0_pay4 (blkX m c ⟨4 * a + 2, by omega⟩) (blkW m c ⟨4 * a + 2, by omega⟩)
            (k0_pay4 (blkX m c ⟨4 * a + 1, by omega⟩) (blkW m c ⟨4 * a + 1, by omega⟩)
              (k0_pay4 (blkX m c ⟨4 * a, by omega⟩) (blkW m c ⟨4 * a, by omega⟩) k0_pay1))) := by
  rw [stM_kpos m c (4 * a + 2) h (by omega), stM_kpos m c (4 * a + 1) (by omega) (by omega),
    stM_kpos m c (4 * a) (by omega) (by omega), stM_k0 m c (4 * a) (by omega) (by omega)]

/-- At j = 0 and k = 0 the row accumulator is the x block added to the zero block. -/
theorem stR_first (c : Dev nD) (n : ℕ) (h : n < cfg0.N) (hj : n / 4 % 4 = 0) (hk : n % 4 = 0) :
    (st m c n h).2 = k0_pay5 (blkX m c ⟨n, h⟩) k0_pay2 := by
  cases n with
  | zero =>
    show stepR 0 0 (blkX m c ⟨0, h⟩) (blkA m c ⟨0, h⟩) k0_pay2 = _
    unfold stepR; rw [if_pos rfl, if_neg (by decide), if_pos rfl]
  | succ n =>
    show stepR ((n + 1) / 4 % 4) ((n + 1) % 4) _ _ _ = _
    unfold stepR; rw [if_pos hj, if_neg (by omega), if_pos hk]

/-- At j = 0 and 0 < k < 3 it is the x block added to what the position before left. -/
theorem stR_mid (c : Dev nD) (n : ℕ) (h : n + 1 < cfg0.N) (hj : (n + 1) / 4 % 4 = 0) (hk : (n + 1) % 4 ≠ 0) (hk3 : (n + 1) % 4 ≠ 3) :
    (st m c (n + 1) h).2 = k0_pay5 (blkX m c ⟨n + 1, h⟩) (st m c n (Nat.lt_of_succ_lt h)).2 := by
  show stepR ((n + 1) / 4 % 4) ((n + 1) % 4) _ _ _ = _
  unfold stepR; rw [if_pos hj, if_neg hk3, if_neg hk]

/-- At j = 0 and k = 3 it is that sum times the adapter matrix. -/
theorem stR_last (c : Dev nD) (n : ℕ) (h : n + 1 < cfg0.N) (hj : (n + 1) / 4 % 4 = 0) (hk3 : (n + 1) % 4 = 3) :
    (st m c (n + 1) h).2 = k0_pay6 (k0_pay5 (blkX m c ⟨n + 1, h⟩) (st m c n (Nat.lt_of_succ_lt h)).2) (blkA m c ⟨n + 1, h⟩) := by
  show stepR ((n + 1) / 4 % 4) ((n + 1) % 4) _ _ _ = _
  unfold stepR; rw [if_pos hj, if_pos hk3, if_neg (by omega)]

/-- At j > 0 it is what the position before left. -/
theorem stR_keep (c : Dev nD) (n : ℕ) (h : n + 1 < cfg0.N) (hj : (n + 1) / 4 % 4 ≠ 0) :
    (st m c (n + 1) h).2 = (st m c n (Nat.lt_of_succ_lt h)).2 := by
  show stepR ((n + 1) / 4 % 4) ((n + 1) % 4) _ _ _ = _
  unfold stepR; rw [if_neg hj]

/-- The row accumulator at the end of row block b's first column block. -/
theorem stR_unrolled (c : Dev nD) (b : ℕ) (h : 16 * b + 3 < cfg0.N) :
    (st m c (16 * b + 3) h).2
      = k0_pay6 (k0_pay5 (blkX m c ⟨16 * b + 3, h⟩)
          (k0_pay5 (blkX m c ⟨16 * b + 2, by omega⟩)
            (k0_pay5 (blkX m c ⟨16 * b + 1, by omega⟩)
              (k0_pay5 (blkX m c ⟨16 * b, by omega⟩) k0_pay2)))) (blkA m c ⟨16 * b + 3, h⟩) := by
  rw [stR_last m c (16 * b + 2) h (by omega) (by omega), stR_mid m c (16 * b + 1) (by omega) (by omega) (by omega) (by omega),
    stR_mid m c (16 * b) (by omega) (by omega) (by omega) (by omega), stR_first m c (16 * b) (by omega) (by omega) (by omega)]

/-- From there to the end of the row block the row accumulator does not change. -/
theorem stR_const (c : Dev nD) (b : ℕ) (d : ℕ) (hd : d ≤ 12) (h : 16 * b + 3 + d < cfg0.N) :
    (st m c (16 * b + 3 + d) h).2 = (st m c (16 * b + 3) (by omega)).2 := by
  induction d with
  | zero => rfl
  | succ d ih =>
    have h' : 16 * b + 3 + d < cfg0.N := by omega
    rw [← ih (by omega) h']
    exact stR_keep m c (16 * b + 3 + d) h (by omega)

end Cert.KernelIdeal.Hand

end
-- ==== Proof.KIPay.lean ====
/-
  The kernel body's arithmetic, read at an index on the extended reals.

  The body works on 1024 x 1024 blocks. On the extended reals a change of float format is the identity, a re-laying of
  a block to its own shape is the identity, the zero word is 0, and a block product that contracts axis 1 of both
  operands into a zero accumulator is, at (p, q), the sum over r of left[p, r] * right[q, r]. So each value the body
  stores is, entry by entry:

    * the two cleared accumulators: 0;
    * the linear accumulator: its old entry plus the product of the x block's row p with the W block's row q;
    * the folded-row accumulator: its old entry plus the x block's entry;
    * the adapter: the product of the folded row p with the A block's row q;
    * the result: the linear accumulator plus the bias row's entry q, plus the adapter.
-/
import proofs.«161207_j89266600280130_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen
open Idealize.ShloMosaic Idealize.ShloMosaic.ValueIdx

/-! ## The block product at an entry -/

/-- The left operand is read at the output's row: coordinate 0 of its index is the output's coordinate 0. -/
theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand is read at the output's column: coordinate 0 of its index is the output's coordinate 1. -/
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- A block product into the zero accumulator, at (p, q): the sum over r of left[p, r] * right[q, r]. -/
theorem product_apply (L R : FVec Ideal S1024x1024 .bf16) (p q : Fin 1024) :
    FloatOps.matmul dot_S1024x1024_S1024x1024_S1024x1024_1_1_0_0_n_n none L R
        (constant (F := Ideal) S1024x1024 .f32 0x00000000#32) (ix2 (n0 := 1024) (n1 := 1024) p q)
      = ∑ r : Fin 1024, L (ix2 (n0 := 1024) (n1 := 1024) p r) * R (ix2 (n0 := 1024) (n1 := 1024) q r) := by
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 (n0 := 1024) (n1 := 1024) p q)
      ((contrEquiv1 dot_S1024x1024_S1024x1024_S1024x1024_1_1_0_0_n_n 1024 rfl rfl).symm k)
      = ix2 (n0 := 1024) (n1 := 1024) p k := funext fun a => Fin.ext (by
    match a with
    | ⟨0, _⟩ => exact lhs_row _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 (n0 := 1024) (n1 := 1024) p q)
      ((contrEquiv1 dot_S1024x1024_S1024x1024_S1024x1024_1_1_0_0_n_n 1024 rfl rfl).symm k)
      = ix2 (n0 := 1024) (n1 := 1024) q k := funext fun a => Fin.ext (by
    match a with
    | ⟨0, _⟩ => exact rhs_row _ _
    | ⟨1, _⟩ => exact (dot_S1024x1024_S1024x1024_S1024x1024_1_1_0_0_n_n.rhsIdx_val_of_single rfl _ _).trans hk)
  rw [el, er]

/-! ## The stored values -/

/-- A cleared accumulator: every entry is 0. -/
theorem pay1_apply (y : S1024x1024.Idx) : k0_pay1 (F := Ideal) y = 0 :=
  (congrFun (shapeCast_self (broadcast S1024x1024 (Scalar.ofBits (F := Ideal) .f32 0x00000000#32)) _) y).trans
    Ideal.ofBits_zero_f32

/-- The other cleared accumulator: every entry is 0. -/
theorem pay2_apply (y : S1024x1024.Idx) : k0_pay2 (F := Ideal) y = 0 :=
  (congrFun (shapeCast_self (broadcast S1024x1024 (Scalar.ofBits (F := Ideal) .f32 0x00000000#32)) _) y).trans
    Ideal.ofBits_zero_f32

/-- The x block re-laid to its own shape is the x block. -/
theorem pay3_eq (x0 : Vec Ideal S1024x1024 .bf16) : k0_pay3 (F := Ideal) x0 = x0 := shapeCast_self x0 _

/-- The linear accumulator at (p, q): its old entry plus row p of the x block against row q of the W block. -/
theorem pay4_apply (x0 x1 : Vec Ideal S1024x1024 .bf16) (s : Vec Ideal S1024x1024 .f32) (p q : Fin 1024) :
    k0_pay4 (F := Ideal) x0 x1 s (ix2 (n0 := 1024) (n1 := 1024) p q)
      = s (ix2 (n0 := 1024) (n1 := 1024) p q)
        + ∑ r : Fin 1024, x0 (ix2 (n0 := 1024) (n1 := 1024) p r) * x1 (ix2 (n0 := 1024) (n1 := 1024) q r) := by
  unfold k0_pay4
  refine (congrFun (shapeCast_self _ _) _).trans ?_
  refine congrArg (s (ix2 (n0 := 1024) (n1 := 1024) p q) + ·) ?_
  refine (product_apply _ _ p q).trans ?_
  exact Finset.sum_congr rfl fun r _ =>
    congrArg₂ (· * ·) (congrFun (pay3_eq x0) _) (congrFun (shapeCast_self x1 _) _)

/-- The folded-row accumulator at (p, q): its old entry plus the x block's entry. -/
theorem pay5_apply (x0 : Vec Ideal S1024x1024 .bf16) (s : Vec Ideal S1024x1024 .f32) (p q : Fin 1024) :
    k0_pay5 (F := Ideal) x0 s (ix2 (n0 := 1024) (n1 := 1024) p q)
      = s (ix2 (n0 := 1024) (n1 := 1024) p q) + x0 (ix2 (n0 := 1024) (n1 := 1024) p q) := by
  unfold k0_pay5
  refine (congrFun (shapeCast_self _ _) _).trans ?_
  exact congrArg (s (ix2 (n0 := 1024) (n1 := 1024) p q) + ·) (congrFun (pay3_eq x0) _)

/-- The adapter at (p, q): row p of the folded row block against row q of the A block. -/
theorem pay6_apply (s : Vec Ideal S1024x1024 .f32) (a : Vec Ideal S1024x1024 .bf16) (p q : Fin 1024) :
    k0_pay6 (F := Ideal) s a (ix2 (n0 := 1024) (n1 := 1024) p q)
      = ∑ r : Fin 1024, s (ix2 (n0 := 1024) (n1 := 1024) p r) * a (ix2 (n0 := 1024) (n1 := 1024) q r) := by
  unfold k0_pay6
  refine (congrFun (shapeCast_self _ _) _).trans ?_
  refine (product_apply _ _ p q).trans ?_
  exact Finset.sum_congr rfl fun r _ =>
    congrArg (s (ix2 (n0 := 1024) (n1 := 1024) p r) * ·) (congrFun (shapeCast_self a _) _)

/-- The result at (p, q): the linear accumulator plus the bias row's entry q, plus the adapter. -/
theorem pay7_apply (s0 : Vec Ideal S1024x1024 .f32) (bb : Vec Ideal S1x1024 .f32) (s1 : Vec Ideal S1024x1024 .f32)
    (p q : Fin 1024) :
    k0_pay7 (F := Ideal) s0 bb s1 (ix2 (n0 := 1024) (n1 := 1024) p q)
      = (s0 (ix2 (n0 := 1024) (n1 := 1024) p q) + bb (ix2 (n0 := 1) (n1 := 1024) 0 q))
        + s1 (ix2 (n0 := 1024) (n1 := 1024) p q) := by
  unfold k0_pay7
  refine congrArg (· + s1 (ix2 (n0 := 1024) (n1 := 1024) p q)) ?_
  refine congrArg (s0 (ix2 (n0 := 1024) (n1 := 1024) p q) + ·) ?_
  refine (broadcastTo_1b_ab_apply _ _ p q).trans ?_
  exact congrFun (shapeCast_self bb _) _

end Cert.KernelIdeal.PayValue

end
-- ==== Proof.KIBlocks.lean ====
/-
  The kernel's four input blocks, read at an index, as entries of the argument arrays.

  The grid is 16 x 4 x 4; the point at position t in row-major order has i = t / 16 (the block of rows),
  j = (t / 4) mod 4 (the block of output columns) and k = t mod 4 (the block of the contraction). At that point

    * the x block is rows 1024 i .. 1024 i + 1023 and columns 1024 k .. 1024 k + 1023 of x flattened to
      [16384, 4096]; row a of the flattened array is entry (a / 4096, a mod 4096) of the [4, 4096, 4096] argument;
    * the W block is rows 1024 j .. and columns 1024 k .. of W;
    * the bias block is entries 1024 j .. 1024 j + 1023 of b, laid out as a [1, 4096] row;
    * the adapter block is the whole matrix A.

  Two layers. First each block is read off the array its window is cut from, where the window's rectangle says:
  coordinate = block index x block size + coordinate inside the block, the block indices being decided once over
  the 256 points. Then each of those arrays, which the host wrote before the region (a reshape, and changes of float
  format that are the identity on extended reals), is read at an index in terms of the argument: a reshape keeps
  the row-major position.
-/
import proofs.«161207_j89266600280130_2_alg».proof.Proof.KIState
import Idealize.ShloMosaic.Lib.ValueIdx
import Idealize.ShloMosaic.Lib.Pipeline.Value
import Idealize.ShloMosaic.Lib.StableHlo.Run

set_option maxRecDepth 16384

noncomputable section

namespace Cert.KernelIdeal.BlockValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand

variable (m : (ℓ : Loc nD τ sig) → Buf (Elt Ideal) ℓ)

/-! ## The index maps over the grid -/

/-- The x window's block index at position t is (i, k) = (t / 16, t mod 4). -/
theorem idxX : ∀ t : Fin cfg0.N, win0_0.index t (0 : Fin 2) = t.val / 16 ∧ win0_0.index t (1 : Fin 2) = t.val % 4 :=
  (by decide +kernel : ∀ t : Fin grid0.N, _)
/-- The W window's block index is (j, k) = ((t / 4) mod 4, t mod 4). -/
theorem idxW : ∀ t : Fin cfg0.N, win0_1.index t (0 : Fin 2) = t.val / 4 % 4 ∧ win0_1.index t (1 : Fin 2) = t.val % 4 :=
  (by decide +kernel : ∀ t : Fin grid0.N, _)
/-- The bias window's block index is (0, j). -/
theorem idxB : ∀ t : Fin cfg0.N, win0_2.index t (0 : Fin 2) = 0 ∧ win0_2.index t (1 : Fin 2) = t.val / 4 % 4 :=
  (by decide +kernel : ∀ t : Fin grid0.N, _)
/-- The adapter window's block index is (0, 0) at every point. -/
theorem idxA : ∀ t : Fin cfg0.N, win0_3.index t (0 : Fin 2) = 0 ∧ win0_3.index t (1 : Fin 2) = 0 :=
  (by decide +kernel : ∀ t : Fin grid0.N, _)

/-- A position of the grid is below 256. -/
theorem t_lt (t : Fin cfg0.N) : t.val < 256 := lt_of_lt_of_eq t.isLt N_0

/-! ## Each block read off its array

On every axis the array coordinate of entry y of the block at t is (block index at t) x (block size) + 1 x (y's
coordinate); with the block index decided above this is the coordinate the hypotheses name. -/

/-- The x block at t, at y, is the flattened bf16 x at (1024 (t / 16) + y0, 1024 (t mod 4) + y1). -/
theorem blkX_V (c : Dev nD) (t : Fin cfg0.N) (y : S1024x1024.Idx) (k : S16384x4096.Idx)
    (hk0 : (k 0).val = t.val / 16 * 1024 + (y 0).val) (hk1 : (k 1).val = t.val % 4 * 1024 + (y 1).val) :
    blkX m c t y = (V m c main_v1 : S16384x4096.Idx → EReal) k := by
  obtain ⟨e0, e1⟩ := idxX t
  unfold blkX iblk
  rw [View.read_apply]
  show V m c main_v1 _ = V m c main_v1 k
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The W block at t, at y, is the bf16 W at (1024 ((t / 4) mod 4) + y0, 1024 (t mod 4) + y1). -/
theorem blkW_V (c : Dev nD) (t : Fin cfg0.N) (y : S1024x1024.Idx) (k : S4096x4096.Idx)
    (hk0 : (k 0).val = t.val / 4 % 4 * 1024 + (y 0).val) (hk1 : (k 1).val = t.val % 4 * 1024 + (y 1).val) :
    blkW m c t y = (V m c main_v2 : S4096x4096.Idx → EReal) k := by
  obtain ⟨e0, e1⟩ := idxW t
  unfold blkW iblk
  rw [View.read_apply]
  show V m c main_v2 _ = V m c main_v2 k
  congr 1
  funext a
  apply Fin.ext
  match a with
  | ⟨0, _⟩ => show win0_1.index t (0 : Fin 2) * 1024 + 1 * (y 0).val = (k 0).val; rw [e0, hk0]; omega
  | ⟨1, _⟩ => show win0_1.index t (1 : Fin 2) * 1024 + 1 * (y 1).val = (k 1).val; rw [e1, hk1]; omega

/-- The bias block at t, at y, is the bias row at (0, 1024 ((t / 4) mod 4) + y1). -/
theorem blkB_V (c : Dev nD) (t : Fin cfg0.N) (y : S1x1024.Idx) (k : S1x4096.Idx)
    (hk0 : (k 0).val = 0) (hk1 : (k 1).val = t.val / 4 % 4 * 1024 + (y 1).val) :
    blkB m c t y = (V m c main_v4 : S1x4096.Idx → EReal) k := by
  obtain ⟨e0, e1⟩ := idxB t
  unfold blkB iblk
  rw [View.read_apply]
  show V m c main_v4 _ = V m c main_v4 k
  congr 1
  funext a
  apply Fin.ext
  match a with
  | ⟨0, _⟩ => show win0_2.index t (0 : Fin 2) * 1 + 1 * (y 0).val = (k 0).val; rw [e0, hk0]; have hy : (y 0).val < 1 := (y 0).isLt; omega
  | ⟨1, _⟩ => show win0_2.index t (1 : Fin 2) * 1024 + 1 * (y 1).val = (k 1).val; rw [e1, hk1]; omega

/-- The adapter block at any t is the whole bf16 adapter matrix. -/
theorem blkA_V (c : Dev nD) (t : Fin cfg0.N) (y : S1024x1024.Idx) :
    blkA m c t y = (V m c main_v3 : S1024x1024.Idx → EReal) y := by
  obtain ⟨e0, e1⟩ := idxA t
  unfold blkA iblk
  rw [View.read_apply]
  show V m c main_v3 _ = V m c main_v3 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-! ## The arrays the host wrote before the region, as terms of the arguments -/

/-- The flattened bf16 x: x reshaped to [16384, 4096], then narrowed. -/
theorem V_v1 (c : Dev nD) : (V m c main_v1 : S16384x4096.Idx → EReal)
    = truncf (F := Ideal) (s := S16384x4096) .bf16 (shapeCast S16384x4096 (m ((c.tc : Thread nD τ).loc main_arg0) : S4x4096x4096.Idx → EReal) shapeCasts_S4x4096x4096_S16384x4096) bitsLt_bf16_f32 := by
  show StableHlo.after hostOps0 (fun b => m (c, b)) (Proc.devRef .tc main_v1) = _
  after_results
  rfl

/-- The bf16 W: W narrowed. -/
theorem V_v2 (c : Dev nD) : (V m c main_v2 : S4096x4096.Idx → EReal)
    = truncf (F := Ideal) (s := S4096x4096) .bf16 (m ((c.tc : Thread nD τ).loc main_arg1) : S4096x4096.Idx → EReal) bitsLt_bf16_f32 := by
  show StableHlo.after hostOps0 (fun b => m (c, b)) (Proc.devRef .tc main_v2) = _
  after_results

/-- The bf16 adapter matrix: A narrowed. -/
theorem V_v3 (c : Dev nD) : (V m c main_v3 : S1024x1024.Idx → EReal)
    = truncf (F := Ideal) (s := S1024x1024) .bf16 (m ((c.tc : Thread nD τ).loc main_arg3) : S1024x1024.Idx → EReal) bitsLt_bf16_f32 := by
  show StableHlo.after hostOps0 (fun b => m (c, b)) (Proc.devRef .tc main_v3) = _
  after_results

/-- The bias row: b reshaped to [1, 4096]. -/
theorem V_v4 (c : Dev nD) : (V m c main_v4 : S1x4096.Idx → EReal)
    = shapeCast S1x4096 (m ((c.tc : Thread nD τ).loc main_arg2) : S4096.Idx → EReal) shapeCasts_S4096_S1x4096 := by
  show StableHlo.after hostOps0 (fun b => m (c, b)) (Proc.devRef .tc main_v4) = _
  after_results
  rfl

/-! ## Those arrays read at an index

A narrowing is the identity on extended reals; a reshape reads the operand at the index with the same row-major
position. -/

/-- Row a, column k of the flattened x is x at (a / 4096, a mod 4096, k): both have row-major position
    4096 a + k, since 4096 (a / 4096) + a mod 4096 = a. -/
theorem V_v1_apply (c : Dev nD) (a : Fin 16384) (k : Fin 4096) (h0 : a.val / 4096 < 4) (h1 : a.val % 4096 < 4096) :
    (V m c main_v1 : S16384x4096.Idx → EReal) (ix2 a k)
      = (m ((c.tc : Thread nD τ).loc main_arg0) : S4x4096x4096.Idx → EReal) (ix3 ⟨a.val / 4096, h0⟩ ⟨a.val % 4096, h1⟩ k) := by
  rw [V_v1, truncf_apply]
  refine shapeCast_apply _ _ _ _ ?_
  show (S4x4096x4096.rowMajor (ix3 (n0 := 4) (n1 := 4096) (n2 := 4096) ⟨a.val / 4096, h0⟩ ⟨a.val % 4096, h1⟩ k)).val
    = (S16384x4096.rowMajor (ix2 a k)).val
  rw [Shape.rowMajor_val_three, Shape.rowMajor_val_two]
  show (a.val / 4096 * 4096 + a.val % 4096) * 4096 + k.val = a.val * 4096 + k.val
  omega

/-- The bf16 W is W, entry by entry. -/
theorem V_v2_apply (c : Dev nD) (i : S4096x4096.Idx) :
    (V m c main_v2 : S4096x4096.Idx → EReal) i = (m ((c.tc : Thread nD τ).loc main_arg1) : S4096x4096.Idx → EReal) i := by
  rw [V_v2, truncf_apply]

/-- The bf16 adapter matrix is A, entry by entry. -/
theorem V_v3_apply (c : Dev nD) (i : S1024x1024.Idx) :
    (V m c main_v3 : S1024x1024.Idx → EReal) i = (m ((c.tc : Thread nD τ).loc main_arg3) : S1024x1024.Idx → EReal) i := by
  rw [V_v3, truncf_apply]

/-- The bias row at (0, o) is b at o: both have row-major position o. -/
theorem V_v4_apply (c : Dev nD) (o : Fin 4096) :
    (V m c main_v4 : S1x4096.Idx → EReal) (ix2 (0 : Fin 1) o) = (m ((c.tc : Thread nD τ).loc main_arg2) : S4096.Idx → EReal) (ix1 o) := by
  rw [V_v4]
  refine shapeCast_apply _ _ _ _ ?_
  show (S4096.rowMajor (ix1 (n := 4096) o)).val = (S1x4096.rowMajor (ix2 (0 : Fin 1) o)).val
  rw [Shape.rowMajor_val_one, Shape.rowMajor_val_two]
  show o.val = 0 * 4096 + o.val
  omega

/-! ## The blocks in terms of the arguments -/

/-- Row 1024 i + p of the flattened x is below 16384. -/
theorem rowX_lt (t : Fin cfg0.N) (p : Fin 1024) : t.val / 16 * 1024 + p.val < 16384 := by
  have := t_lt t; have := p.isLt; omega
/-- Column 1024 k + r is below 4096. -/
theorem colK_lt (t : Fin cfg0.N) (r : Fin 1024) : t.val % 4 * 1024 + r.val < 4096 := by
  have := r.isLt; omega
/-- Row 1024 j + q is below 4096. -/
theorem rowJ_lt (t : Fin cfg0.N) (q : Fin 1024) : t.val / 4 % 4 * 1024 + q.val < 4096 := by
  have := q.isLt; omega
/-- The batch coordinate of row 1024 i + p is below 4. -/
theorem batch_lt (t : Fin cfg0.N) (p : Fin 1024) : (t.val / 16 * 1024 + p.val) / 4096 < 4 := by
  have := rowX_lt t p; omega
/-- Its sequence coordinate is below 4096. -/
theorem seq_lt (t : Fin cfg0.N) (p : Fin 1024) : (t.val / 16 * 1024 + p.val) % 4096 < 4096 := by
  omega

/-- THE x BLOCK at position t, at (p, r): with a = 1024 (t / 16) + p, x at (a / 4096, a mod 4096, 1024 (t mod 4) + r). -/
theorem blkX_apply (c : Dev nD) (t : Fin cfg0.N) (p r : Fin 1024) :
    blkX m c t (ix2 (n0 := 1024) (n1 := 1024) p r)
      = m ((c.tc : Thread nD τ).loc main_arg0) (ix3 (n0 := 4) (n1 := 4096) (n2 := 4096)
          ⟨(t.val / 16 * 1024 + p.val) / 4096, batch_lt t p⟩ ⟨(t.val / 16 * 1024 + p.val) % 4096, seq_lt t p⟩
          ⟨t.val % 4 * 1024 + r.val, colK_lt t r⟩) := by
  rw [blkX_V m c t (ix2 p r) (ix2 ⟨t.val / 16 * 1024 + p.val, rowX_lt t p⟩ ⟨t.val % 4 * 1024 + r.val, colK_lt t r⟩) rfl rfl]
  exact V_v1_apply m c _ _ _ _

/-- THE W BLOCK at position t, at (q, r): W at (1024 ((t / 4) mod 4) + q, 1024 (t mod 4) + r). -/
theorem blkW_apply (c : Dev nD) (t : Fin cfg0.N) (q r : Fin 1024) :
    blkW m c t (ix2 (n0 := 1024) (n1 := 1024) q r)
      = m ((c.tc : Thread nD τ).loc main_arg1) (ix2 (n0 := 4096) (n1 := 4096)
          ⟨t.val / 4 % 4 * 1024 + q.val, rowJ_lt t q⟩ ⟨t.val % 4 * 1024 + r.val, colK_lt t r⟩) := by
  rw [blkW_V m c t (ix2 q r) (ix2 ⟨t.val / 4 % 4 * 1024 + q.val, rowJ_lt t q⟩ ⟨t.val % 4 * 1024 + r.val, colK_lt t r⟩) rfl rfl]
  exact V_v2_apply m c _

/-- THE BIAS BLOCK at position t, at (0, q): b at 1024 ((t / 4) mod 4) + q. -/
theorem blkB_apply (c : Dev nD) (t : Fin cfg0.N) (q : Fin 1024) :
    blkB m c t (ix2 (n0 := 1) (n1 := 1024) 0 q)
      = m ((c.tc : Thread nD τ).loc main_arg2) (ix1 (n := 4096) ⟨t.val / 4 % 4 * 1024 + q.val, rowJ_lt t q⟩) := by
  rw [blkB_V m c t (ix2 0 q) (ix2 (0 : Fin 1) ⟨t.val / 4 % 4 * 1024 + q.val, rowJ_lt t q⟩) rfl rfl]
  exact V_v4_apply m c _

/-- THE ADAPTER BLOCK at any position, at (q, r): A at (q, r). -/
theorem blkA_apply (c : Dev nD) (t : Fin cfg0.N) (q r : Fin 1024) :
    blkA m c t (ix2 (n0 := 1024) (n1 := 1024) q r)
      = m ((c.tc : Thread nD τ).loc main_arg3) (ix2 (n0 := 1024) (n1 := 1024) q r) := by
  rw [blkA_V m c t (ix2 q r)]
  exact V_v3_apply m c _

end Cert.KernelIdeal.BlockValue

end
-- ==== Proof.KIRunA.lean ====
/-
  The kernel body at a grid point with j = 0 and k = 0: both accumulators are reset, then the block product and the x block are added.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : condK0 i) (hc2 : condJK0 i) (hc3 : condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 (k0_pay1 (F := F))) ∗ owns (c : Thread nD τ) arg9 fullShare (k0_pay5 x0 (k0_pay2 (F := F)))) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.KernelIdeal.Hand

end
-- ==== Proof.KIRunB.lean ====
/-
  The kernel body at a grid point with j = 0 and 0 < k < 3: the block product and the x block are added to what the point before left.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 xs0) ∗ owns (c : Thread nD τ) arg9 fullShare (k0_pay5 x0 xs1)) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.KernelIdeal.Hand

end
-- ==== Proof.KIRunC.lean ====
/-
  The kernel body at a grid point with j = 0 and k = 3: the last additions, the row sum replaced by its product with the adapter matrix, and the output block stored.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : condJ0 i) (hc4 : condJK3 i) (hc5 : condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay7 (k0_pay4 x0 x1 xs0) x2 (k0_pay6 (k0_pay5 x0 xs1) x3)) ∗ owns (c : Thread nD τ) arg8 fullShare (k0_pay4 x0 x1 xs0) ∗ owns (c : Thread nD τ) arg9 fullShare (k0_pay6 (k0_pay5 x0 xs1) x3)) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr
  swap; · iexact H6
  ipureintro
  try sl_unfold_words
  refine (read_writes_whole_last (S := S1024x1024) _ _ hz _ _ _).trans ?_
  simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]

end Cert.KernelIdeal.Hand

end
-- ==== Proof.KIRunD.lean ====
/-
  The kernel body at a grid point with j > 0 and k = 0: the main accumulator is reset and the block product added; the cached adapter term is kept.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runD (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : condK0 i) (hc2 : ¬condJK0 i) (hc3 : ¬condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 (k0_pay1 (F := F))) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.KernelIdeal.Hand

end
-- ==== Proof.KIRunE.lean ====
/-
  The kernel body at a grid point with j > 0 and 0 < k < 3: the block product is added; the cached adapter term is kept.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runE (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : ¬condJ0 i) (hc4 : ¬condJK3 i) (hc5 : ¬condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (k0_pay4 x0 x1 xs0) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.KernelIdeal.Hand

end
-- ==== Proof.KIRunF.lean ====
/-
  The kernel body at a grid point with j > 0 and k = 3: the last block product is added and the output block stored with the cached adapter term.
  The body is run on whole buffers holding named contents; what it leaves in the two accumulators and in the
  output's buffer is stated through the body's own arithmetic (the skeleton's payloads).
-/
import proofs.«161207_j89266600280130_2_alg».proof.Proof.KIConds
import proofs.«161207_j89266600280130_2_alg».proof.Proof.LibWholeStores

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.WholeStores
variable {F : FTy → Type} [FloatOps F]
local notation "𝕄" => MT nD τ sig Unit (Elt F) ℕ (UR sig nD τ) ℕ

set_option maxHeartbeats 2000000 in
theorem runF (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole)
    (hc1 : ¬condK0 i) (hc2 : ¬condJK0 i) (hc3 : ¬condJ0 i) (hc4 : ¬condJK3 i) (hc5 : condK3 i)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay7 (k0_pay4 x0 x1 xs0) x2 xs1) ∗ owns (c : Thread nD τ) arg8 fullShare (k0_pay4 x0 x1 xs0) ∗ owns (c : Thread nD τ) arg9 fullShare xs1) -∗ K ⟨⟩))
      ⊢ wp frame (wpE (defs₀ (F := F)) Variants.none c none) E (cc0__mora_kernel i arg3 harg3 arg4 harg4 arg5 harg5 arg6 harg6 arg7 harg7 arg8 harg8 arg9 harg9) K := by
  have hz : (![0, 0] : Fin S1024x1024.rank → ℕ) = fun _ => 0 := by funext a; fin_cases a <;> rfl
  have hz' : (![0, 0] : Fin S1x1024.rank → ℕ) = fun _ => 0 := by funext a; fin_cases a <;> rfl
  simp only [cc0__mora_kernel_eq_skeleton]; unfold cc0__mora_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6
  sl_exec (disch := first | exact hc1 | exact hc2 | exact hc3 | exact hc4 | exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  isplitl [H5]
  · iexists _; isplitr
    swap; · iexact H5
    ipureintro
    try sl_unfold_words
    refine (read_writes_whole_last (S := S1024x1024) _ _ hz _ _ _).trans ?_
    simp only [readAt_whole_unread harg3 hz, readAt_whole_unread harg4 hz, readAt_whole_unread harg5 hz', readAt_whole_unread harg6 hz, readAt_whole_unread harg8 hz, readAt_whole_unread harg9 hz, readCov_whole_last (S := S1024x1024) arg8.view hz, readCov_whole_last (S := S1024x1024) arg9.view hz]
  iexists _; isplitr; · ipureintro; exact harg9.read_unread _
  iexact H6

end Cert.KernelIdeal.Hand

end
-- ==== Proof.KIBody.lean ====
/-
  The body obligation, the frame run and the frame of the fused kernel.

  At every grid point the body, run on the inputs' blocks, on the output's buffer and on the two accumulators at
  what the point before left, takes the accumulators to the state of this point (one step of the recursion that
  defines the state) and, at k = 3, stores the output block; which of the six control cases applies is read off
  the position. The launch hands the accumulators over at anything and takes them back at anything.
-/
import proofs.«161207_j89266600280130_2_alg».proof.Proof.KIState
import proofs.«161207_j89266600280130_2_alg».proof.Proof.KIRunA
import proofs.«161207_j89266600280130_2_alg».proof.Proof.KIRunB
import proofs.«161207_j89266600280130_2_alg».proof.Proof.KIRunC
import proofs.«161207_j89266600280130_2_alg».proof.Proof.KIRunD
import proofs.«161207_j89266600280130_2_alg».proof.Proof.KIRunE
import proofs.«161207_j89266600280130_2_alg».proof.Proof.KIRunF

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

/-- One body run at a point whose conditions are those of j = jj and k = kk, whichever of the six cases that is:
    the accumulators step, and the output's buffer is stored at k = 3 and untouched otherwise. -/
theorem body_step (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (jj kk : ℕ)
    (h1 : condK0 i ↔ kk = 0) (h2 : condJK0 i ↔ (jj = 0 ∧ kk = 0)) (h3 : condJ0 i ↔ jj = 0)
    (h4 : condJK3 i ↔ (jj = 0 ∧ kk = 3)) (h5 : condK3 i ↔ kk = 3)
    (x0 x1 : Vec F S1024x1024 .bf16) (x2 : Vec F S1x1024 .f32) (x3 : Vec F S1024x1024 .bf16) (xo xs0 xs1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if kk = 3 then stepO x2 (stepM kk x0 x1 xs0) (stepR jj kk x0 x3 xs1) else xo)
            ∗ owns (c : Thread nD τ) arg8 fullShare (stepM kk x0 x1 xs0) ∗ owns (c : Thread nD τ) arg9 fullShare (stepR jj kk x0 x3 xs1)) -∗ K ⟨⟩))
      ⊢ wp frame (wpE (defs₀ (F := F)) Variants.none c none) E (cc0__mora_kernel i arg3 harg3 arg4 harg4 arg5 harg5 arg6 harg6 arg7 harg7 arg8 harg8 arg9 harg9) K := by
  by_cases hk0 : kk = 0
  · have hk3 : ¬ kk = 3 := by omega
    by_cases hj0 : jj = 0
    · simp only [stepM, stepR, stepO, if_pos hk0, if_pos hj0, if_neg hk3]
      exact runA c i arg3 harg3 arg4 harg4 arg5 harg5 arg6 harg6 arg7 harg7 arg8 harg8 arg9 harg9 (h1.mpr hk0) (h2.mpr ⟨hj0, hk0⟩) (h3.mpr hj0) (fun h => hk3 (h4.mp h).2) (fun h => hk3 (h5.mp h)) x0 x1 x2 x3 xo xs0 xs1 E K
    · simp only [stepM, stepR, stepO, if_pos hk0, if_neg hj0, if_neg hk3]
      exact runD c i arg3 harg3 arg4 harg4 arg5 harg5 arg6 harg6 arg7 harg7 arg8 harg8 arg9 harg9 (h1.mpr hk0) (fun h => hj0 (h2.mp h).1) (fun h => hj0 (h3.mp h)) (fun h => hk3 (h4.mp h).2) (fun h => hk3 (h5.mp h)) x0 x1 x2 x3 xo xs0 xs1 E K
  · by_cases hk3 : kk = 3
    · by_cases hj0 : jj = 0
      · simp only [stepM, stepR, stepO, if_neg hk0, if_pos hj0, if_pos hk3]
        exact runC c i arg3 harg3 arg4 harg4 arg5 harg5 arg6 harg6 arg7 harg7 arg8 harg8 arg9 harg9 (fun h => hk0 (h1.mp h)) (fun h => hk0 (h2.mp h).2) (h3.mpr hj0) (h4.mpr ⟨hj0, hk3⟩) (h5.mpr hk3) x0 x1 x2 x3 xo xs0 xs1 E K
      · simp only [stepM, stepR, stepO, if_neg hk0, if_neg hj0, if_pos hk3]
        exact runF c i arg3 harg3 arg4 harg4 arg5 harg5 arg6 harg6 arg7 harg7 arg8 harg8 arg9 harg9 (fun h => hk0 (h1.mp h)) (fun h => hk0 (h2.mp h).2) (fun h => hj0 (h3.mp h)) (fun h => hj0 (h4.mp h).1) (h5.mpr hk3) x0 x1 x2 x3 xo xs0 xs1 E K
    · by_cases hj0 : jj = 0
      · simp only [stepM, stepR, stepO, if_neg hk0, if_pos hj0, if_neg hk3]
        exact runB c i arg3 harg3 arg4 harg4 arg5 harg5 arg6 harg6 arg7 harg7 arg8 harg8 arg9 harg9 (fun h => hk0 (h1.mp h)) (fun h => hk0 (h2.mp h).2) (h3.mpr hj0) (fun h => hk3 (h4.mp h).2) (fun h => hk3 (h5.mp h)) x0 x1 x2 x3 xo xs0 xs1 E K
      · simp only [stepM, stepR, stepO, if_neg hk0, if_neg hj0, if_neg hk3]
        exact runE c i arg3 harg3 arg4 harg4 arg5 harg5 arg6 harg6 arg7 harg7 arg8 harg8 arg9 harg9 (fun h => hk0 (h1.mp h)) (fun h => hk0 (h2.mp h).2) (fun h => hj0 (h3.mp h)) (fun h => hj0 (h4.mp h).1) (fun h => hk3 (h5.mp h)) x0 x1 x2 x3 xo xs0 xs1 E K

variable (m : (ℓ : Loc nD τ sig) → Buf (Elt F) ℓ) (ρ : Dev nD → PrngReg)

/-- The conditions at the point of position t are those of j = t / 4 mod 4 and k = t mod 4. -/
theorem hJK0 (t : Fin cfg0.N) : condJK0 (grid0.coords t) ↔ (t.val / 4 % 4 = 0 ∧ t.val % 4 = 0) :=
  (hcondJK0 t).trans ⟨fun h => by omega, fun h => by omega⟩
theorem hJK3 (t : Fin cfg0.N) : condJK3 (grid0.coords t) ↔ (t.val / 4 % 4 = 0 ∧ t.val % 4 = 3) :=
  (hcondJK3 t).trans ⟨fun h => by omega, fun h => by omega⟩

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the output's buffer is handed back as: its block at k = 3; whatever it held, untouched, elsewhere. -/
theorem leaves4 (c : Dev nD) (t : Fin cfg0.N) (xo : Vec F S1024x1024 .f32) (hxo : ∃ d, xo = (dats m 0 c).before 4 t d) :
    owns (c : Thread nD τ) (ms4 t) fullShare (if t.val % 4 = 3 then (dats m 0 c).after 4 t else xo) ⊢ (dats m 0 c).leavesExact 4 t := by
  by_cases hk3 : t.val % 4 = 3
  · rw [if_pos hk3, show (dats m 0 c).leavesExact 4 t = owns (c : Thread nD τ) (ms4 t) fullShare ((dats m 0 c).after 4 t) from by
      unfold Dat.leavesExact; rw [live4 t hk3]]
  · obtain ⟨d, rfl⟩ := hxo
    rw [if_neg hk3, Dat.leavesExact_idle (dats m 0 c) 4 t (idle4 t hk3) (noFlush4 t hk3)]
    iintro H; iexists _; iexact H

set_option maxHeartbeats 4000000 in
/-- The body at any point, from accumulators holding xs0 and xs1, which unless the point is the first are the
    state of the point before. -/
theorem sound_core (c : Dev nD) (t : Fin cfg0.N) (xs0 xs1 : Vec F S1024x1024 .f32)
    (h : ∀ hz : t.val ≠ 0, xs0 = (st m c (t.val - 1) (by omega)).1 ∧ xs1 = (st m c (t.val - 1) (by omega)).2) :
    iprop(iprop(iprop(owns (c : Thread nD τ) accMain fullShare xs0 ∗ owns (c : Thread nD τ) accRow fullShare xs1) ∗ (∃ r, prngReg c r))
      ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d)))
    ⊢ wp frame (wpE (defs₀ (F := F)) Variants.none c none) Set.univ (bodyAt0 t) (fun _ => bodyPost m c t) := by
  unfold bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [st_eq m c t xs0 xs1 h]
  iintro ⟨⟨⟨HS0, HS1⟩, Hg⟩, Ho, ⟨%d0, H0⟩, ⟨%d1, H1⟩, ⟨%d2, H2⟩, ⟨%d3, H3⟩, ⟨%d4, H4⟩⟩
  iapply (body_step c (grid0.coords t) (ms0 t) (hs0 t) (ms1 t) (hs1 t) (ms2 t) (hs2 t) (ms3 t) (hs3 t) (ms4 t) (hs4 t)
    accMain (Memref.isWhole_whole _) accRow (Memref.isWhole_whole _) (t.val / 4 % 4) (t.val % 4)
    (hcondK0 t) (hJK0 t) (hcondJ0 t) (hJK3 t) (hcondK3 t)
    (blkX m c t) (blkW m c t) (blkB m c t) (blkA m c t) ((dats m 0 c).before 4 t d4) xs0 xs1 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iapply (leaves4 m c t ((dats m 0 c).before 4 t d4) ⟨d4, rfl⟩)
  rw [after4, st_eq m c t xs0 xs1 h]
  iexact H4

set_option maxHeartbeats 4000000 in
/-- The body at any point: before the first point the launch's invariant hands both accumulators over at
    anything; afterwards the invariant names them at the state of the point before. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA_eq]
    iintro ⟨⟨⟨⟨%xs0, HS0⟩, ⟨%xs1, HS1⟩⟩, Hg⟩, Hrest⟩
    iapply (sound_core m c t xs0 xs1 (fun h => absurd hz h))
    isplitl [HS0 HS1 Hg]
    · isplitl [HS0 HS1]
      · isplitl [HS0]; · iexact HS0
        iexact HS1
      iexact Hg
    iexact Hrest
  · rw [PhiS_castSucc m c t, PhiS_pos m c _ _ hz]
    exact sound_core m c t _ _ (fun _ => ⟨rfl, rfl⟩)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the accumulators hold is forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every weakly fair execution of @main terminates, and every final state has the pipeline's arrays at what the
    proof data say and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.MoraSpec.lean ====
/-
  The function both programs compute, element by element on the extended reals.

  With x of shape [4, 4096, 4096], W of shape [4096, 4096], b of length 4096 and A of shape [1024, 1024], the
  element at (s, t, o) is

      ( sum over k < 4096 of x[s, t, k] * W[o, k]  +  b[o] )
        +  sum over r < 1024 of ( sum over g < 4 of x[s, t, g * 1024 + r] ) * A[o mod 1024, r] :

  the linear layer, plus the adapter applied to the row folded into four groups of 1024 columns, its 1024 output
  columns repeated four times across the 4096 output columns.
-/
import Idealize.ShloMosaic.PureOps.Ideal
import Idealize.ShloMosaic.Lib.ValueIdx

noncomputable section

open scoped BigOperators

namespace Cert.Mora

open Idealize.ShloMosaic Idealize.ShloMosaic.ValueIdx

/-- Column g * 1024 + r of a row of 4096 columns: column r of the g-th group. -/
def col (g : Fin 4) (r : Fin 1024) : Fin 4096 := ⟨g.val * 1024 + r.val, by omega⟩

/-- The adapter's output column that output column q repeats: q mod 1024. -/
def lo (q : Fin 4096) : Fin 1024 := ⟨q.val % 1024, Nat.mod_lt _ (by norm_num)⟩

/-- The result as one function of the four argument arrays. -/
def G (x : (⟨3, ![4, 4096, 4096]⟩ : Shape).Idx → EReal) (W : (⟨2, ![4096, 4096]⟩ : Shape).Idx → EReal)
    (b : (⟨1, ![4096]⟩ : Shape).Idx → EReal) (A : (⟨2, ![1024, 1024]⟩ : Shape).Idx → EReal) :
    (⟨3, ![4, 4096, 4096]⟩ : Shape).Idx → EReal := fun i =>
  ((∑ k : Fin 4096, x (ix3 (n0 := 4) (n1 := 4096) (n2 := 4096) (i 0) (i 1) k) * W (ix2 (n0 := 4096) (n1 := 4096) (i 2) k))
      + b (ix1 (n := 4096) (i 2)))
    + ∑ r : Fin 1024, (∑ g : Fin 4, x (ix3 (n0 := 4) (n1 := 4096) (n2 := 4096) (i 0) (i 1) (col g r)))
        * A (ix2 (n0 := 1024) (n1 := 1024) (lo (i 2)) r)

/-- A sum over the 4096 columns is the sum over the four groups of the sums over each group's 1024 columns. -/
theorem sum_cols {M : Type*} [AddCommMonoid M] (f : Fin 4096 → M) :
    ∑ k : Fin 4096, f k = ∑ g : Fin 4, ∑ r : Fin 1024, f (col g r) := by
  rw [← Finset.sum_product']
  refine (Finset.sum_bij' (fun (p : Fin 4 × Fin 1024) _ => col p.1 p.2)
    (fun (k : Fin 4096) _ => ((⟨k.val / 1024, by omega⟩ : Fin 4), (⟨k.val % 1024, by omega⟩ : Fin 1024)))
    (fun _ _ => Finset.mem_univ _) (fun _ _ => Finset.mem_univ _) ?_ ?_ ?_).symm
  · rintro ⟨g, r⟩ _
    simp only [col, Prod.mk.injEq]
    exact ⟨Fin.ext (by simp only []; omega), Fin.ext (by simp only []; omega)⟩
  · intro k _
    exact Fin.ext (by simp only [col]; omega)
  · intro p _; rfl

end Cert.Mora

end
-- ==== Proof.KIArray.lean ====
/-
  From the blocks to the result array.

  The output window's block at grid point (i, j, k) is rows i * 1024 … and columns j * 1024 … of the
  [16384, 4096] output array, and it is written back exactly at the points with k = 3. Given that the block stored
  at such a point is, element by element, the function G of the four arguments read at row i * 1024 + p and column
  j * 1024 + q (the hypothesis of this module, proved elsewhere from the body's arithmetic), the blocks written back
  are the restrictions of ONE array, every element of the output array lies in exactly such a block, so the output
  array ends as that array; the host operation after the region re-lays it as [4, 4096, 4096] without moving any
  element, which gives G of the arguments.
-/
import proofs.«161207_j89266600280130_2_alg».proof.Proof.KIBody
import proofs.«161207_j89266600280130_2_alg».proof.Proof.MoraSpec
import Idealize.ShloMosaic.Lib.Pipeline.Value
import Idealize.ShloMosaic.Lib.ValueIdx
import Idealize.ShloMosaic.Lib.StableHlo.Run

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Mora

variable (m : (ℓ : Loc nD τ sig) → Buf (Elt Ideal) ℓ) (ρ : Dev nD → PrngReg)

/-- G of the four argument arrays as launched. -/
def GA (c : Dev nD) : S4x4096x4096.Idx → EReal :=
  G (m ((c.tc : Thread nD τ).loc main_arg0)) (m ((c.tc : Thread nD τ).loc main_arg1))
    (m ((c.tc : Thread nD τ).loc main_arg2)) (m ((c.tc : Thread nD τ).loc main_arg3))

/-- The same laid out as [16384, 4096]: row a is (a / 4096, a mod 4096). -/
def G2 (c : Dev nD) : S16384x4096.Idx → EReal := fun i =>
  GA m c (ix3 (n0 := 4) (n1 := 4096) (n2 := 4096) ⟨(i 0).val / 4096, by have h16384 : (i 0).val < 16384 := (i 0).isLt; omega⟩
    ⟨(i 0).val % 4096, Nat.mod_lt _ (by norm_num)⟩ (i 1))

/-- The output window's index map, decided over the grid: block row i = t / 16, block column j = t / 4 mod 4. -/
theorem idx4 : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

/-- An index of the output array is in point t's block iff each coordinate is in the block's range on its axis. -/
theorem mem_blk4 (t : Fin cfg0.N) (i : S16384x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- Every element of the output array lies in the block of a point that writes back. -/
theorem cover4 (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 256 := N_0
  refine ⟨⟨(i 0).val / 1024 * 16 + (i 1).val / 1024 * 4 + 3, by omega⟩, (flush0_4 _).mpr (by show ((i 0).val / 1024 * 16 + (i 1).val / 1024 * 4 + 3) % 4 = 3; omega), ?_⟩
  rw [mem_blk4]
  obtain ⟨e0, e1⟩ := idx4 ⟨(i 0).val / 1024 * 16 + (i 1).val / 1024 * 4 + 3, by omega⟩
  intro a
  match a with
  | ⟨0, _⟩ =>
    show win0_4.index _ (0 : Fin 2) * 1024 ≤ (i 0).val ∧ (i 0).val < win0_4.index _ (0 : Fin 2) * 1024 + 1024
    rw [e0]; show ((i 0).val / 1024 * 16 + (i 1).val / 1024 * 4 + 3) / 16 * 1024 ≤ _ ∧ _ < ((i 0).val / 1024 * 16 + (i 1).val / 1024 * 4 + 3) / 16 * 1024 + 1024
    omega
  | ⟨1, _⟩ =>
    show win0_4.index _ (1 : Fin 2) * 1024 ≤ (i 1).val ∧ (i 1).val < win0_4.index _ (1 : Fin 2) * 1024 + 1024
    rw [e1]; show ((i 0).val / 1024 * 16 + (i 1).val / 1024 * 4 + 3) / 4 % 4 * 1024 ≤ _ ∧ _ < ((i 0).val / 1024 * 16 + (i 1).val / 1024 * 4 + 3) / 4 % 4 * 1024 + 1024
    omega

section FromBlocks

/- The hypothesis: at a position n with k = 3, the block the body stores is G at row n / 16 * 1024 + p and column
   n / 4 mod 4 * 1024 + q. -/
variable (hblock : ∀ (c : Dev nD) (n : ℕ) (h : n < cfg0.N) (hk : n % 4 = 3) (p q : Fin 1024)
    (hr : n / 16 * 1024 + p.val < 16384) (hc : n / 4 % 4 * 1024 + q.val < 4096),
    stepO (blkB m c ⟨n, h⟩) (st m c n h).1 (st m c n h).2 (ix2 (n0 := 1024) (n1 := 1024) p q)
      = G2 m c (ix2 (n0 := 16384) (n1 := 4096) ⟨n / 16 * 1024 + p.val, hr⟩ ⟨n / 4 % 4 * 1024 + q.val, hc⟩))

include hblock in
/-- What a point with k = 3 writes back is its block of the one array G2. -/
theorem flushed_eq (c : Dev nD) (t : Fin cfg0.N) (hf : (cfg0.win 4).flush t = true) :
    (dats m 0 c).flushed 4 t = ((cfg0.win 4).blk t).view.read (Elt Ideal) (G2 m c) := by
  have hk : t.val % 4 = 3 := (flush0_4 t).mp hf
  have hN : cfg0.N = 256 := N_0
  have ht : t.val < 256 := hN ▸ t.isLt
  obtain ⟨e0, e1⟩ := idx4 t
  show (cfg0.win 4).cut (grid0.coords t) ((dats m 0 c).after 4 t) = _
  rw [after4]
  funext j
  have hj0 : (j 0).val < 1024 := (j 0).isLt
  have hj1 : (j 1).val < 1024 := (j 1).isLt
  show stepO (blkB m c t) (st m c t.val t.isLt).1 (st m c t.val t.isLt).2 j = G2 m c (((cfg0.win 4).blk t).view.emb j)
  have hj : j = ix2 (n0 := 1024) (n1 := 1024) (j 0) (j 1) := eq_ix2 j
  rw [show stepO (blkB m c t) (st m c t.val t.isLt).1 (st m c t.val t.isLt).2 j
      = stepO (blkB m c t) (st m c t.val t.isLt).1 (st m c t.val t.isLt).2 (ix2 (n0 := 1024) (n1 := 1024) (j 0) (j 1)) from congrArg _ hj]
  rw [hblock c t.val t.isLt hk (j 0) (j 1) (by omega) (by omega)]
  refine congrArg (G2 m c) ?_
  funext a; apply Fin.ext
  match a with
  | ⟨0, _⟩ => show t.val / 16 * 1024 + (j 0).val = win0_4.index t (0 : Fin 2) * 1024 + 1 * (j 0).val; omega
  | ⟨1, _⟩ => show t.val / 4 % 4 * 1024 + (j 1).val = win0_4.index t (1 : Fin 2) * 1024 + 1 * (j 1).val; omega

include hblock in
/-- The output array after the region. -/
theorem final4 (c : Dev nD) : (dats m 0 c).arrAt 4 cfg0.N = G2 m c :=
  (dats m 0 c).arrAt_eq_of_cover 4 (G2 m c) (fun t hf => flushed_eq m hblock c t hf) cover4

include hblock in
/-- The result buffer after the host operation that follows the region: the output array re-laid as
    [4, 4096, 4096], which is G of the arguments. -/
theorem result_eq (c : Dev nD) :
    Pipeline.afterTail₀ cfgs (dats m) 0 (V0 m) [hostOps1] c main_v6 = GA m c := by
  unfold Pipeline.afterTail₀
  show StableHlo.after hostOps1 _ (Proc.devRef .tc main_v6) = _
  after_results
  rw [(Pipeline.withArrays_arr spec0 launch0.win.arr_inj c _ _ 4).trans (final4 m hblock c)]
  funext i
  obtain ⟨s, tt, o, rfl⟩ : ∃ (s : Fin 4) (tt : Fin 4096) (o : Fin 4096), i = ix3 (n0 := 4) (n1 := 4096) (n2 := 4096) s tt o :=
    ⟨i 0, i 1, i 2, eq_ix3 i⟩
  refine (shapeCast_apply _ shapeCasts_S16384x4096_S4x4096x4096 _ (ix2 (n0 := 16384) (n1 := 4096) ⟨s.val * 4096 + tt.val, by omega⟩ o) ?_).trans ?_
  · rw [Shape.rowMajor_val_three, Shape.rowMajor_val_two]
    show (s.val * 4096 + tt.val) * 4096 + o.val = (s.val * 4096 + tt.val) * 4096 + o.val
    rfl
  · unfold G2
    refine congrArg (GA m c) ?_
    funext a; apply Fin.ext
    match a with
    | ⟨0, _⟩ => show (s.val * 4096 + tt.val) / 4096 = s.val; omega
    | ⟨1, _⟩ => show (s.val * 4096 + tt.val) % 4096 = tt.val; omega
    | ⟨2, _⟩ => rfl

include hblock in
/-- The run with the result named: every weakly fair execution terminates with the result buffer at G of the
    arguments and the arguments unchanged. -/
theorem run_value_of : θ_run defs (onTc (τ := τ) (main (F := Ideal))) ⟨m, fun _ => 0, ρ⟩ (fun r => ∀ c : Dev nD,
      r.2.mem ((c.tc : Thread nD τ).loc main_v6) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (result_eq m hblock c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end FromBlocks

end Cert.KernelIdeal.Hand

end
-- ==== Proof.MoraAlgebra.lean ====
/-
  The algebra that joins the two sides. The kernel adds the contraction group by group (four groups of 1024
  columns, each group's sum added to the running total, which starts at zero) and folds the row the same way;
  the reference contracts over all 4096 columns at once and sums the four groups of the folded row at once.
  On the extended reals these agree: a sum over the 4096 columns is the sum of the four group sums, and adding
  to zero changes nothing. Only commutativity and associativity of addition are used; no value need be finite.
-/
import proofs.«161207_j89266600280130_2_alg».proof.Proof.MoraSpec

noncomputable section

open scoped BigOperators

namespace Cert.Mora

open Idealize.ShloMosaic Idealize.ShloMosaic.ValueIdx

/-- A sum over the four groups, written out in order. -/
theorem sum_groups {M : Type*} [AddCommMonoid M] (f : Fin 4 → M) :
    ∑ g : Fin 4, f g = f (⟨0, by omega⟩ : Fin 4) + f (⟨1, by omega⟩ : Fin 4) + f (⟨2, by omega⟩ : Fin 4) + f (⟨3, by omega⟩ : Fin 4) := Fin.sum_univ_four f

/-- The group-by-group accumulation, the bias and the folded row times the adapter row are G at the index. -/
theorem fused_eq_G (x : (⟨3, ![4, 4096, 4096]⟩ : Shape).Idx → EReal) (W : (⟨2, ![4096, 4096]⟩ : Shape).Idx → EReal)
    (b : (⟨1, ![4096]⟩ : Shape).Idx → EReal) (A : (⟨2, ![1024, 1024]⟩ : Shape).Idx → EReal)
    (s : Fin 4) (tt : Fin 4096) (o : Fin 4096) :
    (((((0 + ∑ r : Fin 1024, x (ix3 (n0 := 4) (n1 := 4096) (n2 := 4096) s tt (col (⟨0, by omega⟩ : Fin 4) r)) * W (ix2 (n0 := 4096) (n1 := 4096) o (col (⟨0, by omega⟩ : Fin 4) r)))
          + ∑ r : Fin 1024, x (ix3 (n0 := 4) (n1 := 4096) (n2 := 4096) s tt (col (⟨1, by omega⟩ : Fin 4) r)) * W (ix2 (n0 := 4096) (n1 := 4096) o (col (⟨1, by omega⟩ : Fin 4) r)))
          + ∑ r : Fin 1024, x (ix3 (n0 := 4) (n1 := 4096) (n2 := 4096) s tt (col (⟨2, by omega⟩ : Fin 4) r)) * W (ix2 (n0 := 4096) (n1 := 4096) o (col (⟨2, by omega⟩ : Fin 4) r)))
          + ∑ r : Fin 1024, x (ix3 (n0 := 4) (n1 := 4096) (n2 := 4096) s tt (col (⟨3, by omega⟩ : Fin 4) r)) * W (ix2 (n0 := 4096) (n1 := 4096) o (col (⟨3, by omega⟩ : Fin 4) r)))
        + b (ix1 (n := 4096) o))
      + ∑ r : Fin 1024, ((((0 + x (ix3 (n0 := 4) (n1 := 4096) (n2 := 4096) s tt (col (⟨0, by omega⟩ : Fin 4) r))) + x (ix3 (n0 := 4) (n1 := 4096) (n2 := 4096) s tt (col (⟨1, by omega⟩ : Fin 4) r))) + x (ix3 (n0 := 4) (n1 := 4096) (n2 := 4096) s tt (col (⟨2, by omega⟩ : Fin 4) r))) + x (ix3 (n0 := 4) (n1 := 4096) (n2 := 4096) s tt (col (⟨3, by omega⟩ : Fin 4) r)))
          * A (ix2 (n0 := 1024) (n1 := 1024) (lo o) r)
    = G x W b A (ix3 (n0 := 4) (n1 := 4096) (n2 := 4096) s tt o) := by
  unfold G
  show _ = ((∑ k : Fin 4096, x (ix3 (n0 := 4) (n1 := 4096) (n2 := 4096) s tt k) * W (ix2 (n0 := 4096) (n1 := 4096) o k))
      + b (ix1 (n := 4096) o))
    + ∑ r : Fin 1024, (∑ g : Fin 4, x (ix3 (n0 := 4) (n1 := 4096) (n2 := 4096) s tt (col g r)))
        * A (ix2 (n0 := 1024) (n1 := 1024) (lo o) r)
  rw [sum_cols (fun k => x (ix3 (n0 := 4) (n1 := 4096) (n2 := 4096) s tt k) * W (ix2 (n0 := 4096) (n1 := 4096) o k)), sum_groups]
  simp only [zero_add]
  refine congrArg _ (Finset.sum_congr rfl fun r _ => ?_)
  rw [sum_groups]

end Cert.Mora

end
-- ==== Proof.KIOut.lean ====
/-
  The block stored at a point with k = 3 is G of the arguments.

  At such a position n (row block i = n / 16, column block j = n / 4 mod 4) the main accumulator holds the block
  products of the positions n - 3, …, n added one after the other to zero, the row accumulator the x blocks of
  the positions 16 i, …, 16 i + 3 added one after the other to zero and then multiplied by the adapter matrix,
  and the stored block is their sum with the bias block. Read at (p, q), with every block read off the argument it
  is cut from: the x block of a position with k = g is columns g * 1024 … of rows i * 1024 …, so the four block
  products are the four group sums of the contraction of row i * 1024 + p of x with row j * 1024 + q of W, and the
  four x blocks are the four groups of the folded row; the adapter's row is q = (j * 1024 + q) mod 1024. The
  algebra of the specification then gives G at row i * 1024 + p and column j * 1024 + q.
-/
import proofs.«161207_j89266600280130_2_alg».proof.Proof.KIUnroll
import proofs.«161207_j89266600280130_2_alg».proof.Proof.KIPay
import proofs.«161207_j89266600280130_2_alg».proof.Proof.KIBlocks
import proofs.«161207_j89266600280130_2_alg».proof.Proof.KIArray
import proofs.«161207_j89266600280130_2_alg».proof.Proof.MoraAlgebra

set_option maxRecDepth 16384

noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Mora Cert.KernelIdeal.PayValue Cert.KernelIdeal.BlockValue

variable (m : (ℓ : Loc nD τ sig) → Buf (Elt Ideal) ℓ) (ρ : Dev nD → PrngReg)

/-- The main accumulator at a position with k = 3, over the four positions of its output block. -/
theorem stM_at (c : Dev nD) (n : ℕ) (h : n < cfg0.N) (hk : n % 4 = 3) :
    (st m c n h).1
      = k0_pay4 (blkX m c ⟨n, h⟩) (blkW m c ⟨n, h⟩)
          (k0_pay4 (blkX m c ⟨n - 1, by omega⟩) (blkW m c ⟨n - 1, by omega⟩)
            (k0_pay4 (blkX m c ⟨n - 2, by omega⟩) (blkW m c ⟨n - 2, by omega⟩)
              (k0_pay4 (blkX m c ⟨n - 3, by omega⟩) (blkW m c ⟨n - 3, by omega⟩) (k0_pay1 (F := Ideal))))) := by
  obtain ⟨a, rfl⟩ : ∃ a, n = 4 * a + 3 := ⟨n / 4, by omega⟩
  exact stM_unrolled m c a h

/-- The row accumulator anywhere from the end of row block b's first column block to the end of the row block. -/
theorem stR_at (c : Dev nD) (n : ℕ) (h : n < cfg0.N) (b : ℕ) (hb : 16 * b + 3 ≤ n ∧ n ≤ 16 * b + 15) :
    (st m c n h).2
      = k0_pay6 (k0_pay5 (blkX m c ⟨16 * b + 3, by omega⟩)
          (k0_pay5 (blkX m c ⟨16 * b + 2, by omega⟩)
            (k0_pay5 (blkX m c ⟨16 * b + 1, by omega⟩)
              (k0_pay5 (blkX m c ⟨16 * b, by omega⟩) (k0_pay2 (F := Ideal)))))) (blkA m c ⟨16 * b + 3, by omega⟩) := by
  obtain ⟨d, rfl⟩ : ∃ d, n = 16 * b + 3 + d := ⟨n - (16 * b + 3), by omega⟩
  rw [stR_const m c b d (by omega) h, stR_unrolled m c b (by omega)]

/-- The x block of a position in row block of rows (s, tt) and with k = g, read at (p, r): x at column g * 1024 + r. -/
theorem leafX (c : Dev nD) (n' : ℕ) (h' : n' < cfg0.N) (p r : Fin 1024) (s : Fin 4) (tt : Fin 4096) (g : Fin 4)
    (hs : (n' / 16 * 1024 + p.val) / 4096 = s.val) (ht : (n' / 16 * 1024 + p.val) % 4096 = tt.val) (hg : n' % 4 = g.val) :
    blkX m c ⟨n', h'⟩ (ix2 (n0 := 1024) (n1 := 1024) p r) = m ((c.tc : Thread nD τ).loc main_arg0) (ix3 (n0 := 4) (n1 := 4096) (n2 := 4096) s tt (col g r)) := by
  rw [blkX_apply]
  refine congrArg _ ?_
  funext d; apply Fin.ext
  match d with
  | ⟨0, _⟩ => exact hs
  | ⟨1, _⟩ => exact ht
  | ⟨2, _⟩ => show n' % 4 * 1024 + r.val = g.val * 1024 + r.val; rw [hg]

/-- The W block of a position with column block of row o and with k = g, read at (q, r). -/
theorem leafW (c : Dev nD) (n' : ℕ) (h' : n' < cfg0.N) (q r : Fin 1024) (o : Fin 4096) (g : Fin 4)
    (ho : n' / 4 % 4 * 1024 + q.val = o.val) (hg : n' % 4 = g.val) :
    blkW m c ⟨n', h'⟩ (ix2 (n0 := 1024) (n1 := 1024) q r) = m ((c.tc : Thread nD τ).loc main_arg1) (ix2 (n0 := 4096) (n1 := 4096) o (col g r)) := by
  rw [blkW_apply]
  refine congrArg _ ?_
  funext d; apply Fin.ext
  match d with
  | ⟨0, _⟩ => exact ho
  | ⟨1, _⟩ => show n' % 4 * 1024 + r.val = g.val * 1024 + r.val; rw [hg]

/-- The bias block read at column q. -/
theorem leafB (c : Dev nD) (n' : ℕ) (h' : n' < cfg0.N) (q : Fin 1024) (o : Fin 4096)
    (ho : n' / 4 % 4 * 1024 + q.val = o.val) :
    blkB m c ⟨n', h'⟩ (ix2 (n0 := 1) (n1 := 1024) 0 q) = m ((c.tc : Thread nD τ).loc main_arg2) (ix1 (n := 4096) o) := by
  rw [blkB_apply]
  refine congrArg _ ?_
  funext d; apply Fin.ext
  match d with
  | ⟨0, _⟩ => exact ho

/-- The adapter block read at (q, r), q being the output column modulo 1024. -/
theorem leafA (c : Dev nD) (n' : ℕ) (h' : n' < cfg0.N) (q r : Fin 1024) (o : Fin 4096) (ho : o.val % 1024 = q.val) :
    blkA m c ⟨n', h'⟩ (ix2 (n0 := 1024) (n1 := 1024) q r) = m ((c.tc : Thread nD τ).loc main_arg3) (ix2 (n0 := 1024) (n1 := 1024) (lo o) r) := by
  rw [blkA_apply]
  refine congrArg _ ?_
  funext d; apply Fin.ext
  match d with
  | ⟨0, _⟩ => exact ho.symm
  | ⟨1, _⟩ => rfl

set_option maxHeartbeats 1000000 in
/-- The block stored at a position with k = 3, read at (p, q), is G at row n / 16 * 1024 + p, column
    n / 4 mod 4 * 1024 + q. -/
theorem out_apply (c : Dev nD) (n : ℕ) (h : n < cfg0.N) (hk : n % 4 = 3) (p q : Fin 1024)
    (hr : n / 16 * 1024 + p.val < 16384) (hc : n / 4 % 4 * 1024 + q.val < 4096) :
    stepO (blkB m c ⟨n, h⟩) (st m c n h).1 (st m c n h).2 (ix2 (n0 := 1024) (n1 := 1024) p q)
      = G2 m c (ix2 (n0 := 16384) (n1 := 4096) ⟨n / 16 * 1024 + p.val, hr⟩ ⟨n / 4 % 4 * 1024 + q.val, hc⟩) := by
  have hN : cfg0.N = 256 := N_0
  have hn : n < 256 := hN ▸ h
  have hp : p.val < 1024 := p.isLt
  have hq : q.val < 1024 := q.isLt
  let s : Fin 4 := ⟨(n / 16 * 1024 + p.val) / 4096, by omega⟩
  let tt : Fin 4096 := ⟨(n / 16 * 1024 + p.val) % 4096, Nat.mod_lt _ (by norm_num)⟩
  let o : Fin 4096 := ⟨n / 4 % 4 * 1024 + q.val, hc⟩
  have eX3 : ∀ r, blkX m c ⟨n, h⟩ (ix2 (n0 := 1024) (n1 := 1024) p r) = m ((c.tc : Thread nD τ).loc main_arg0) (ix3 (n0 := 4) (n1 := 4096) (n2 := 4096) s tt (col ⟨3, by omega⟩ r)) :=
    fun r => leafX m c n h p r s tt ⟨3, by omega⟩ rfl rfl hk
  have eX2 : ∀ r, blkX m c ⟨n - 1, by omega⟩ (ix2 (n0 := 1024) (n1 := 1024) p r) = m ((c.tc : Thread nD τ).loc main_arg0) (ix3 (n0 := 4) (n1 := 4096) (n2 := 4096) s tt (col ⟨2, by omega⟩ r)) :=
    fun r => leafX m c (n - 1) (by omega) p r s tt ⟨2, by omega⟩ (by show _ = (n / 16 * 1024 + p.val) / 4096; omega) (by show _ = (n / 16 * 1024 + p.val) % 4096; omega) (by show _ = 2; omega)
  have eX1 : ∀ r, blkX m c ⟨n - 2, by omega⟩ (ix2 (n0 := 1024) (n1 := 1024) p r) = m ((c.tc : Thread nD τ).loc main_arg0) (ix3 (n0 := 4) (n1 := 4096) (n2 := 4096) s tt (col ⟨1, by omega⟩ r)) :=
    fun r => leafX m c (n - 2) (by omega) p r s tt ⟨1, by omega⟩ (by show _ = (n / 16 * 1024 + p.val) / 4096; omega) (by show _ = (n / 16 * 1024 + p.val) % 4096; omega) (by show _ = 1; omega)
  have eX0 : ∀ r, blkX m c ⟨n - 3, by omega⟩ (ix2 (n0 := 1024) (n1 := 1024) p r) = m ((c.tc : Thread nD τ).loc main_arg0) (ix3 (n0 := 4) (n1 := 4096) (n2 := 4096) s tt (col ⟨0, by omega⟩ r)) :=
    fun r => leafX m c (n - 3) (by omega) p r s tt ⟨0, by omega⟩ (by show _ = (n / 16 * 1024 + p.val) / 4096; omega) (by show _ = (n / 16 * 1024 + p.val) % 4096; omega) (by show _ = 0; omega)
  have eW3 : ∀ r, blkW m c ⟨n, h⟩ (ix2 (n0 := 1024) (n1 := 1024) q r) = m ((c.tc : Thread nD τ).loc main_arg1) (ix2 (n0 := 4096) (n1 := 4096) o (col ⟨3, by omega⟩ r)) :=
    fun r => leafW m c n h q r o ⟨3, by omega⟩ rfl hk
  have eW2 : ∀ r, blkW m c ⟨n - 1, by omega⟩ (ix2 (n0 := 1024) (n1 := 1024) q r) = m ((c.tc : Thread nD τ).loc main_arg1) (ix2 (n0 := 4096) (n1 := 4096) o (col ⟨2, by omega⟩ r)) :=
    fun r => leafW m c (n - 1) (by omega) q r o ⟨2, by omega⟩ (by show _ = n / 4 % 4 * 1024 + q.val; omega) (by show _ = 2; omega)
  have eW1 : ∀ r, blkW m c ⟨n - 2, by omega⟩ (ix2 (n0 := 1024) (n1 := 1024) q r) = m ((c.tc : Thread nD τ).loc main_arg1) (ix2 (n0 := 4096) (n1 := 4096) o (col ⟨1, by omega⟩ r)) :=
    fun r => leafW m c (n - 2) (by omega) q r o ⟨1, by omega⟩ (by show _ = n / 4 % 4 * 1024 + q.val; omega) (by show _ = 1; omega)
  have eW0 : ∀ r, blkW m c ⟨n - 3, by omega⟩ (ix2 (n0 := 1024) (n1 := 1024) q r) = m ((c.tc : Thread nD τ).loc main_arg1) (ix2 (n0 := 4096) (n1 := 4096) o (col ⟨0, by omega⟩ r)) :=
    fun r => leafW m c (n - 3) (by omega) q r o ⟨0, by omega⟩ (by show _ = n / 4 % 4 * 1024 + q.val; omega) (by show _ = 0; omega)
  have eR3 : ∀ r, blkX m c ⟨16 * (n / 16) + 3, by omega⟩ (ix2 (n0 := 1024) (n1 := 1024) p r) = m ((c.tc : Thread nD τ).loc main_arg0) (ix3 (n0 := 4) (n1 := 4096) (n2 := 4096) s tt (col ⟨3, by omega⟩ r)) :=
    fun r => leafX m c (16 * (n / 16) + 3) (by omega) p r s tt ⟨3, by omega⟩ (by show _ = (n / 16 * 1024 + p.val) / 4096; omega) (by show _ = (n / 16 * 1024 + p.val) % 4096; omega) (by show _ = 3; omega)
  have eR2 : ∀ r, blkX m c ⟨16 * (n / 16) + 2, by omega⟩ (ix2 (n0 := 1024) (n1 := 1024) p r) = m ((c.tc : Thread nD τ).loc main_arg0) (ix3 (n0 := 4) (n1 := 4096) (n2 := 4096) s tt (col ⟨2, by omega⟩ r)) :=
    fun r => leafX m c (16 * (n / 16) + 2) (by omega) p r s tt ⟨2, by omega⟩ (by show _ = (n / 16 * 1024 + p.val) / 4096; omega) (by show _ = (n / 16 * 1024 + p.val) % 4096; omega) (by show _ = 2; omega)
  have eR1 : ∀ r, blkX m c ⟨16 * (n / 16) + 1, by omega⟩ (ix2 (n0 := 1024) (n1 := 1024) p r) = m ((c.tc : Thread nD τ).loc main_arg0) (ix3 (n0 := 4) (n1 := 4096) (n2 := 4096) s tt (col ⟨1, by omega⟩ r)) :=
    fun r => leafX m c (16 * (n / 16) + 1) (by omega) p r s tt ⟨1, by omega⟩ (by show _ = (n / 16 * 1024 + p.val) / 4096; omega) (by show _ = (n / 16 * 1024 + p.val) % 4096; omega) (by show _ = 1; omega)
  have eR0 : ∀ r, blkX m c ⟨16 * (n / 16), by omega⟩ (ix2 (n0 := 1024) (n1 := 1024) p r) = m ((c.tc : Thread nD τ).loc main_arg0) (ix3 (n0 := 4) (n1 := 4096) (n2 := 4096) s tt (col ⟨0, by omega⟩ r)) :=
    fun r => leafX m c (16 * (n / 16)) (by omega) p r s tt ⟨0, by omega⟩ (by show _ = (n / 16 * 1024 + p.val) / 4096; omega) (by show _ = (n / 16 * 1024 + p.val) % 4096; omega) (by show _ = 0; omega)
  have eB : blkB m c ⟨n, h⟩ (ix2 (n0 := 1) (n1 := 1024) 0 q) = m ((c.tc : Thread nD τ).loc main_arg2) (ix1 (n := 4096) o) := leafB m c n h q o rfl
  have eA : ∀ r, blkA m c ⟨16 * (n / 16) + 3, by omega⟩ (ix2 (n0 := 1024) (n1 := 1024) q r) = m ((c.tc : Thread nD τ).loc main_arg3) (ix2 (n0 := 1024) (n1 := 1024) (lo o) r) :=
    fun r => leafA m c (16 * (n / 16) + 3) (by omega) q r o (by show (n / 4 % 4 * 1024 + q.val) % 1024 = q.val; omega)
  unfold stepO
  rw [pay7_apply, stM_at m c n h hk, stR_at m c n h (n / 16) (by omega)]
  simp only [pay4_apply, pay5_apply, pay6_apply, pay1_apply, pay2_apply]
  simp only [eX3, eX2, eX1, eX0, eW3, eW2, eW1, eW0, eR3, eR2, eR1, eR0, eB, eA]
  exact fused_eq_G (m ((c.tc : Thread nD τ).loc main_arg0)) (m ((c.tc : Thread nD τ).loc main_arg1)) (m ((c.tc : Thread nD τ).loc main_arg2)) (m ((c.tc : Thread nD τ).loc main_arg3)) s tt o

/-- The run with the result named. -/
theorem run_value : θ_run defs (onTc (τ := τ) (main (F := Ideal))) ⟨m, fun _ => 0, ρ⟩ (fun r => ∀ c : Dev nD,
      r.2.mem ((c.tc : Thread nD τ).loc main_v6) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_value_of m ρ (out_apply m)

end Cert.KernelIdeal.Hand

end
-- ==== Proof.RefIsG.lean ====
/-
  The reference program computes the function G of MoraSpec, element by element on the extended reals.

  The program is twelve host operations. Read at an output index (s, t, o) of the [4, 4096, 4096] result:

    * the linear layer: the contraction of row (s, t) of x with row o of W, plus b[o] (b is first laid out as
      [1, 1, 4096] and then repeated along the two leading axes, so the element at (s, t, o) is b[o]);
    * the folded row: x is re-laid as [4, 4096, 4, 1024] without moving any element, so element (s, t, g, r) of the
      re-laid array is x[s, t, g * 1024 + r]; summing over g, from the zero word, gives the [4, 4096, 1024] array
      whose element (s, t, r) is the sum over the four groups g of x[s, t, g * 1024 + r];
    * the adapter: the contraction of that row with row q of A, for q < 1024;
    * the tiling: the [4, 4096, 1024] adapter output is re-laid as [1, 4, 1, 4096, 1, 1024], repeated four times along
      the fifth axis, and re-laid as [4, 4096, 4096]. A re-laying keeps every element's row-major position, so element
      (s, t, o) of the last array is element (0, s, 0, t, o / 1024, o mod 1024) of the repeated one, which is element
      (0, s, 0, t, 0, o mod 1024) of the rank-6 array before the repetition, which is element (s, t, o mod 1024) of the
      adapter output.

  Adding the two gives G. Nothing here needs a finite value: the proof only renames indices.
-/
import proofs.«161207_j89266600280130_2_alg».proof.Proof.Gen.ReferenceIdeal.Read
import proofs.«161207_j89266600280130_2_alg».proof.Proof.MoraSpec
import Idealize.ShloMosaic.Lib.Pipeline.Value
import Idealize.ShloMosaic.Lib.ValueIdx
import Idealize.ShloMosaic.Lib.ValueIdxRank6
import Idealize.ShloMosaic.PureOps.Ideal.Laws

noncomputable section

open scoped BigOperators

namespace Cert.ReferenceIdeal.RefValue

open Cert.ReferenceIdeal Cert.ReferenceIdeal.Gen Cert.ReferenceIdeal.Read Cert.Mora
open Idealize.ShloMosaic Idealize.ShloMosaic.ValueIdx

/-- The linear layer at (s, t, o): row (s, t) of x against row o of W, plus b[o]. -/
theorem linear_apply (x : (⟨S4x4096x4096, .f32⟩ : BufTy).Contents (Elt Ideal))
    (W : (⟨S4096x4096, .f32⟩ : BufTy).Contents (Elt Ideal)) (b : (⟨S4096, .f32⟩ : BufTy).Contents (Elt Ideal))
    (s : Fin 4) (t : Fin 4096) (o : Fin 4096) :
    val_main_v3 (F := Ideal) x W b (ix3 (n0 := 4) (n1 := 4096) (n2 := 4096) s t o)
      = (∑ k : Fin 4096, x (ix3 (n0 := 4) (n1 := 4096) (n2 := 4096) s t k) * W (ix2 (n0 := 4096) (n1 := 4096) o k))
        + b (ix1 (n := 4096) o) := by
  have el : ∀ k : Fin 4096, lidx_main_v0 (ix3 (n0 := 4) (n1 := 4096) (n2 := 4096) s t o) k
      = ix3 (n0 := 4) (n1 := 4096) (n2 := 4096) s t k := fun k =>
    funext fun d => by match d with | ⟨0, _⟩ => rfl | ⟨1, _⟩ => rfl | ⟨2, _⟩ => rfl
  have er : ∀ k : Fin 4096, ridx_main_v0 (ix3 (n0 := 4) (n1 := 4096) (n2 := 4096) s t o) k
      = ix2 (n0 := 4096) (n1 := 4096) o k := fun k =>
    funext fun d => by match d with | ⟨0, _⟩ => rfl | ⟨1, _⟩ => rfl
  have eb : idx_main_v1 (idx_main_v2 (ix3 (n0 := 4) (n1 := 4096) (n2 := 4096) s t o)) = ix1 (n := 4096) o :=
    funext fun d => by match d with | ⟨0, _⟩ => rfl
  rw [val_main_v3_apply, val_main_v0_apply, val_main_v2_apply, val_main_v1_apply, eb, Ideal.addf_def]
  simp only [el, er]

/-- The re-laid x at (s, t, g, r) is x at column g * 1024 + r of row (s, t): both have the same row-major position. -/
theorem folded_apply (x : (⟨S4x4096x4096, .f32⟩ : BufTy).Contents (Elt Ideal))
    (s : Fin 4) (t : Fin 4096) (g : Fin 4) (r : Fin 1024) :
    val_main_v4 (F := Ideal) x (ix4 (n0 := 4) (n1 := 4096) (n2 := 4) (n3 := 1024) s t g r)
      = x (ix3 (n0 := 4) (n1 := 4096) (n2 := 4096) s t (col g r)) := by
  rw [val_main_v4_apply]
  have hs : s.val < 4 := s.isLt
  have ht : t.val < 4096 := t.isLt
  have hg : g.val < 4 := g.isLt
  have hr : r.val < 1024 := r.isLt
  refine congrArg x (funext fun d => Fin.ext ?_)
  match d with
  | ⟨0, _⟩ => show (((s.val * 4096 + t.val) * 4 + g.val) * 1024 + r.val) / 16777216 = s.val; omega
  | ⟨1, _⟩ => show (((s.val * 4096 + t.val) * 4 + g.val) * 1024 + r.val) / 4096 % 4096 = t.val; omega
  | ⟨2, _⟩ => show (((s.val * 4096 + t.val) * 4 + g.val) * 1024 + r.val) % 4096 = g.val * 1024 + r.val; omega

/-- The folded row at (s, t, r): the sum over the four groups of x at column g * 1024 + r. The sum starts from the
    zero word, which is the extended real 0. -/
theorem groups_apply (x : (⟨S4x4096x4096, .f32⟩ : BufTy).Contents (Elt Ideal))
    (s : Fin 4) (t : Fin 4096) (r : Fin 1024) :
    val_main_v5 (F := Ideal) x (ix3 (n0 := 4) (n1 := 4096) (n2 := 1024) s t r)
      = ∑ g : Fin 4, x (ix3 (n0 := 4) (n1 := 4096) (n2 := 4096) s t (col g r)) := by
  have ei : ∀ g : Fin 4, idx_main_v5 (ix3 (n0 := 4) (n1 := 4096) (n2 := 1024) s t r) g
      = ix4 (n0 := 4) (n1 := 4096) (n2 := 4) (n3 := 1024) s t g r := fun g =>
    funext fun d => by match d with | ⟨0, _⟩ => rfl | ⟨1, _⟩ => rfl | ⟨2, _⟩ => rfl | ⟨3, _⟩ => rfl
  rw [val_main_v5_apply, val_main_cst_apply, Ideal.ofBits_def, Ideal.ofBits_zero_f32, zero_add]
  exact Finset.sum_congr rfl fun g _ => by rw [ei, folded_apply]

/-- The adapter at (s, t, q), q < 1024: the folded row (s, t) against row q of A. -/
theorem adapter_apply (x : (⟨S4x4096x4096, .f32⟩ : BufTy).Contents (Elt Ideal))
    (A : (⟨S1024x1024, .f32⟩ : BufTy).Contents (Elt Ideal)) (s : Fin 4) (t : Fin 4096) (q : Fin 1024) :
    val_main_v6 (F := Ideal) x A (ix3 (n0 := 4) (n1 := 4096) (n2 := 1024) s t q)
      = ∑ r : Fin 1024, (∑ g : Fin 4, x (ix3 (n0 := 4) (n1 := 4096) (n2 := 4096) s t (col g r)))
          * A (ix2 (n0 := 1024) (n1 := 1024) q r) := by
  have el : ∀ r : Fin 1024, lidx_main_v6 (ix3 (n0 := 4) (n1 := 4096) (n2 := 1024) s t q) r
      = ix3 (n0 := 4) (n1 := 4096) (n2 := 1024) s t r := fun r =>
    funext fun d => by match d with | ⟨0, _⟩ => rfl | ⟨1, _⟩ => rfl | ⟨2, _⟩ => rfl
  have er : ∀ r : Fin 1024, ridx_main_v6 (ix3 (n0 := 4) (n1 := 4096) (n2 := 1024) s t q) r
      = ix2 (n0 := 1024) (n1 := 1024) q r := fun r =>
    funext fun d => by match d with | ⟨0, _⟩ => rfl | ⟨1, _⟩ => rfl
  rw [val_main_v6_apply]
  exact Finset.sum_congr rfl fun r _ => by rw [el, er, groups_apply]

/-- The adapter output re-laid with three unit axes: element (0, s, 0, t, 0, q) is element (s, t, q). -/
theorem unit_axes_apply (x : (⟨S4x4096x4096, .f32⟩ : BufTy).Contents (Elt Ideal))
    (A : (⟨S1024x1024, .f32⟩ : BufTy).Contents (Elt Ideal)) (s : Fin 4) (t : Fin 4096) (q : Fin 1024) :
    val_main_v7 (F := Ideal) x A
        (ix6 (n0 := 1) (n1 := 4) (n2 := 1) (n3 := 4096) (n4 := 1) (n5 := 1024) 0 s 0 t 0 q)
      = val_main_v6 (F := Ideal) x A (ix3 (n0 := 4) (n1 := 4096) (n2 := 1024) s t q) := by
  unfold val_main_v7
  refine shapeCast_apply _ shapeCasts_S4x4096x1024_S1x4x1x4096x1x1024 _ _ ?_
  rewrite [Shape.rowMajor_val_three, Shape.rowMajor_val_six]
  show (s.val * 4096 + t.val) * 1024 + q.val
    = ((((0 * 4 + s.val) * 1 + 0) * 4096 + t.val) * 1 + 0) * 1024 + q.val
  omega

/-- The repetition along the fifth axis: element (0, s, 0, t, g, q) is element (0, s, 0, t, 0, q). -/
theorem repeated_apply (x : (⟨S4x4096x4096, .f32⟩ : BufTy).Contents (Elt Ideal))
    (A : (⟨S1024x1024, .f32⟩ : BufTy).Contents (Elt Ideal)) (s : Fin 4) (t : Fin 4096) (g : Fin 4) (q : Fin 1024) :
    val_main_v8 (F := Ideal) x A
        (ix6 (n0 := 1) (n1 := 4) (n2 := 1) (n3 := 4096) (n4 := 4) (n5 := 1024) 0 s 0 t g q)
      = val_main_v7 (F := Ideal) x A
        (ix6 (n0 := 1) (n1 := 4) (n2 := 1) (n3 := 4096) (n4 := 1) (n5 := 1024) 0 s 0 t 0 q) := by
  rw [val_main_v8_apply]
  exact congrArg _ (funext fun d => by
    match d with | ⟨0, _⟩ => rfl | ⟨1, _⟩ => rfl | ⟨2, _⟩ => rfl | ⟨3, _⟩ => rfl | ⟨4, _⟩ => rfl | ⟨5, _⟩ => rfl)

/-- Output column o lies in group o / 1024. -/
def grp (o : Fin 4096) : Fin 4 := ⟨o.val / 1024, by omega⟩

/-- The repeated array re-laid as [4, 4096, 4096]: element (s, t, o) is element (0, s, 0, t, o / 1024, o mod 1024). -/
theorem tiled_apply (x : (⟨S4x4096x4096, .f32⟩ : BufTy).Contents (Elt Ideal))
    (A : (⟨S1024x1024, .f32⟩ : BufTy).Contents (Elt Ideal)) (s : Fin 4) (t : Fin 4096) (o : Fin 4096) :
    val_main_v9 (F := Ideal) x A (ix3 (n0 := 4) (n1 := 4096) (n2 := 4096) s t o)
      = val_main_v8 (F := Ideal) x A
        (ix6 (n0 := 1) (n1 := 4) (n2 := 1) (n3 := 4096) (n4 := 4) (n5 := 1024) 0 s 0 t (grp o) (lo o)) := by
  unfold val_main_v9
  refine shapeCast_apply _ shapeCasts_S1x4x1x4096x4x1024_S4x4096x4096 _ _ ?_
  rewrite [Shape.rowMajor_val_three, Shape.rowMajor_val_six]
  show ((((0 * 4 + s.val) * 1 + 0) * 4096 + t.val) * 4 + o.val / 1024) * 1024 + o.val % 1024
    = (s.val * 4096 + t.val) * 4096 + o.val
  omega

/-- The reference's result is G. -/
theorem ref_is_G (x : (⟨S4x4096x4096, .f32⟩ : BufTy).Contents (Elt Ideal))
    (W : (⟨S4096x4096, .f32⟩ : BufTy).Contents (Elt Ideal)) (b : (⟨S4096, .f32⟩ : BufTy).Contents (Elt Ideal))
    (A : (⟨S1024x1024, .f32⟩ : BufTy).Contents (Elt Ideal)) :
    val_main_v10 (F := Ideal) x W b A = Cert.Mora.G x W b A := by
  funext i
  obtain ⟨s, t, o, rfl⟩ : ∃ (s : Fin 4) (t : Fin 4096) (o : Fin 4096),
      i = ix3 (n0 := 4) (n1 := 4096) (n2 := 4096) s t o := ⟨i 0, i 1, i 2, eq_ix3 i⟩
  rw [val_main_v10_apply, Ideal.addf_def, linear_apply, tiled_apply, repeated_apply, unit_axes_apply, adapter_apply]
  rfl

end Cert.ReferenceIdeal.RefValue

end
-- ==== Proof.lean ====
/-
  A linear layer with a folded-row adapter, fused into one kernel, against its plain reference.

  For x of shape [4, 4096, 4096] (read as 16384 rows), W of shape [4096, 4096], b of length 4096 and A of shape
  [1024, 1024], both programs compute, for row m and output column o,

      ( sum over k < 4096 of x[m, k] * W[o, k]  +  b[o] )
        +  sum over r < 1024 of ( sum over g < 4 of x[m, g * 1024 + r] ) * A[o mod 1024, r].

  The kernel walks a 16 x 4 x 4 grid (row block i, column block j, contraction block k). It keeps two
  accumulators between grid points: the block product x_blk * w_blk^T summed over k, and, while j = 0, the x blocks
  of the row block summed over k, which at k = 3 is multiplied by the adapter matrix and then kept unchanged for
  the other three column blocks of the row block. At k = 3 it stores accumulator + bias + adapter term.

  The frames of the two kernel programs are proved from the body run at each of the six control cases the grid
  meets, with the accumulators' contents tracked point by point. The value claim reads the tracked state in closed
  form, reads every block off the argument it is cut from, and joins the kernel's group-by-group sums with the
  reference's whole sums: a sum over the 4096 columns is the sum of its four group sums, and adding to zero changes
  nothing. Only commutativity and associativity of addition on the extended reals are used, so the precondition
  (all inputs finite) is never opened. The changes of float format are the identity on the extended reals, and the
  idealization rewrote no operation, so the fourth conjunct is trivial.
-/
import proofs.«161207_j89266600280130_2_alg».proof.Defs
import proofs.«161207_j89266600280130_2_alg».proof.Proof.Gen.Kernel
import proofs.«161207_j89266600280130_2_alg».proof.Proof.Gen.KernelIdeal
import proofs.«161207_j89266600280130_2_alg».proof.Proof.Gen.ReferenceIdeal
import proofs.«161207_j89266600280130_2_alg».proof.Proof.Gen.Pre_finite_inputs
import proofs.«161207_j89266600280130_2_alg».proof.Proof.Gen.ReferenceIdeal.Run
import proofs.«161207_j89266600280130_2_alg».proof.Proof.Gen.ReferenceIdeal.Read
import proofs.«161207_j89266600280130_2_alg».proof.Proof.KBBody
import proofs.«161207_j89266600280130_2_alg».proof.Proof.KIOut
import proofs.«161207_j89266600280130_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the result at G of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.GA m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq (F := Ideal) _ _ _ _).trans (Cert.ReferenceIdeal.RefValue.ref_is_G _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
